-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x256x256 : Shape := ⟨4, ![8, 64, 256, 256]⟩
abbrev S256x1024 : Shape := ⟨2, ![256, 1024]⟩
abbrev S256 : Shape := ⟨1, ![256]⟩
abbrev S1024x256 : Shape := ⟨2, ![1024, 256]⟩
abbrev S1024 : Shape := ⟨1, ![1024]⟩
abbrev S_ : Shape := ⟨0, ![]⟩

class Facts : Prop where
  bcast_S_S8x64x256x256 : S_.BroadcastsInDim S8x64x256x256 (![] : Fin 0 → Fin S8x64x256x256.rank)
  reducesTo_S8x64x256x256_S_d0_1_2_3 : S8x64x256x256.ReducesTo [0, 1, 2, 3] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S8x64x256x256 .f32) (main_arg1 : FVec F S256x1024 .f32) (main_arg2 : FVec F S256 .f32) (main_arg3 : FVec F S1024x256 .f32) (main_arg4 : FVec F S1024 .f32) : IVec S_ 1 :=
  let main_v0 : FVec F S8x64x256x256 .f32 := Host.absf main_arg0
  let main_cst : FVec F S_ .f32 := constant S_ .f32 0x7F800000#32
  let main_v1 : FVec F S8x64x256x256 .f32 := broadcastInDim S8x64x256x256 ![] bcast_S_S8x64x256x256 main_cst
  let main_v2 : IVec S8x64x256x256 1 := cmpf .olt main_v0 main_v1
  let main_c : IVec S_ 1 := constantI S_ 1 1#1
  let main_v3 : IVec S_ 1 := (fun x v => Host.reduce IntOp.andi x v reducesTo_S8x64x256x256_S_d0_1_2_3 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S1024x256 .f32 := Host.absf main_arg3
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg4 main_v13 main_v16
-- ==== Kernel.lean ====
abbrev S8x64x256x256 : Shape := ⟨4, ![8, 64, 256, 256]⟩
abbrev S256x1024 : Shape := ⟨2, ![256, 1024]⟩
abbrev S256 : Shape := ⟨1, ![256]⟩
abbrev S1024x256 : Shape := ⟨2, ![1024, 256]⟩
abbrev S1024 : Shape := ⟨1, ![1024]⟩
abbrev S8x64x4x4 : Shape := ⟨4, ![8, 64, 4, 4]⟩
abbrev S1x32x256x256 : Shape := ⟨4, ![1, 32, 256, 256]⟩
abbrev S1x32x4x4 : Shape := ⟨4, ![1, 32, 4, 4]⟩
abbrev S1x32x64x256 : Shape := ⟨4, ![1, 32, 64, 256]⟩
abbrev S32x64x256 : Shape := ⟨3, ![32, 64, 256]⟩
abbrev S32x256 : Shape := ⟨2, ![32, 256]⟩
abbrev S32x4x64 : Shape := ⟨3, ![32, 4, 64]⟩
abbrev S32x4 : Shape := ⟨2, ![32, 4]⟩
abbrev S32x1x4 : Shape := ⟨3, ![32, 1, 4]⟩
abbrev S32x4x4 : Shape := ⟨3, ![32, 4, 4]⟩
abbrev S8x4x4x64 : Shape := ⟨4, ![8, 4, 4, 64]⟩
abbrev S8x1024 : Shape := ⟨2, ![8, 1024]⟩
abbrev S8x256 : Shape := ⟨2, ![8, 256]⟩
abbrev S1x256 : Shape := ⟨2, ![1, 256]⟩
abbrev S_ : Shape := ⟨0, ![]⟩
abbrev S1x1024 : Shape := ⟨2, ![1, 1024]⟩
abbrev S32x4x1 : Shape := ⟨3, ![32, 4, 1]⟩
abbrev S32x1x256 : Shape := ⟨3, ![32, 1, 256]⟩

abbrev nBuf : Space → Nat
  | .hbm => 45
  | .vmem => 10
  | .smem => 0
  | _ => 0

abbrev bufTy : (tb : Table) → Fin (tcTables nBuf tb) → BufTy
  | .hbm, ⟨0, _⟩ => ⟨S8x64x256x256, .f32⟩
  | .hbm, ⟨1, _⟩ => ⟨S256x1024, .f32⟩
  | .hbm, ⟨2, _⟩ => ⟨S256, .f32⟩
  | .hbm, ⟨3, _⟩ => ⟨S1024x256, .f32⟩
  | .hbm, ⟨4, _⟩ => ⟨S1024, .f32⟩
  | .hbm, ⟨5, _⟩ => ⟨S8x64x4x4, .f32⟩
  | .hbm, ⟨6, _⟩ => ⟨S8x4x4x64, .f32⟩
  | .hbm, ⟨7, _⟩ => ⟨S8x1024, .f32⟩
  | .hbm, ⟨8, _⟩ => ⟨S1024x256, .f32⟩
  | .hbm, ⟨9, _⟩ => ⟨S8x256, .f32⟩
  | .hbm, ⟨10, _⟩ => ⟨S1x256, .f32⟩
  | .hbm, ⟨11, _⟩ => ⟨S8x256, .f32⟩
  | .hbm, ⟨12, _⟩ => ⟨S8x256, .f32⟩
  | .hbm, ⟨13, _⟩ => ⟨S_, .f32⟩
  | .hbm, ⟨14, _⟩ => ⟨S8x256, .f32⟩
  | .hbm, ⟨15, _⟩ => ⟨S8x256, .f32⟩
  | .hbm, ⟨16, _⟩ => ⟨S8x256, .f32⟩
  | .hbm, ⟨17, _⟩ => ⟨S8x256, .f32⟩
  | .hbm, ⟨18, _⟩ => ⟨S8x256, .i1⟩
  | .hbm, ⟨19, _⟩ => ⟨S8x256, .f32⟩
  | .hbm, ⟨20, _⟩ => ⟨S8x256, .f32⟩
  | .hbm, ⟨21, _⟩ => ⟨S8x256, .f32⟩
  | .hbm, ⟨22, _⟩ => ⟨S8x256, .f32⟩
  | .hbm, ⟨23, _⟩ => ⟨S8x256, .f32⟩
  | .hbm, ⟨24, _⟩ => ⟨S8x256, .f32⟩
  | .hbm, ⟨25, _⟩ => ⟨S8x256, .f32⟩
  | .hbm, ⟨26, _⟩ => ⟨S8x256, .f32⟩
  | .hbm, ⟨27, _⟩ => ⟨S8x256, .f32⟩
  | .hbm, ⟨28, _⟩ => ⟨S8x256, .f32⟩
  | .hbm, ⟨29, _⟩ => ⟨S256x1024, .f32⟩
  | .hbm, ⟨30, _⟩ => ⟨S8x1024, .f32⟩
  | .hbm, ⟨31, _⟩ => ⟨S1x1024, .f32⟩
  | .hbm, ⟨32, _⟩ => ⟨S8x1024, .f32⟩
  | .hbm, ⟨33, _⟩ => ⟨S8x1024, .f32⟩
  | .hbm, ⟨34, _⟩ => ⟨S8x1024, .f32⟩
  | .hbm, ⟨35, _⟩ => ⟨S8x1024, .f32⟩
  | .hbm, ⟨36, _⟩ => ⟨S_, .f32⟩
  | .hbm, ⟨37, _⟩ => ⟨S8x1024, .f32⟩
  | .hbm, ⟨38, _⟩ => ⟨S8x1024, .f32⟩
  | .hbm, ⟨39, _⟩ => ⟨S_, .f32⟩
  | .hbm, ⟨40, _⟩ => ⟨S8x1024, .f32⟩
  | .hbm, ⟨41, _⟩ => ⟨S8x1024, .f32⟩
  | .hbm, ⟨42, _⟩ => ⟨S8x4x4x64, .f32⟩
  | .hbm, ⟨43, _⟩ => ⟨S8x64x4x4, .f32⟩
  | .hbm, ⟨44, _⟩ => ⟨S8x64x256x256, .f32⟩
  | .local _ .vmem, ⟨0, _⟩ => ⟨S1x32x256x256, .f32⟩
  | .local _ .vmem, ⟨1, _⟩ => ⟨S1x32x256x256, .f32⟩
  | .local _ .vmem, ⟨2, _⟩ => ⟨S1x32x4x4, .f32⟩
  | .local _ .vmem, ⟨3, _⟩ => ⟨S1x32x4x4, .f32⟩
  | .local _ .vmem, ⟨4, _⟩ => ⟨S1x32x256x256, .f32⟩
  | .local _ .vmem, ⟨5, _⟩ => ⟨S1x32x256x256, .f32⟩
  | .local _ .vmem, ⟨6, _⟩ => ⟨S1x32x4x4, .f32⟩
  | .local _ .vmem, ⟨7, _⟩ => ⟨S1x32x4x4, .f32⟩
  | .local _ .vmem, ⟨8, _⟩ => ⟨S1x32x256x256, .f32⟩
  | .local _ .vmem, ⟨9, _⟩ => ⟨S1x32x256x256, .f32⟩
  | _, _ => ⟨S8x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst : Ref sig .tc := ⟨.hbm, 36, rfl⟩
abbrev main_v18 : Ref sig .tc := ⟨.hbm, 37, rfl⟩
abbrev main_v19 : Ref sig .tc := ⟨.hbm, 38, rfl⟩
abbrev main_cst_0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x4x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![8, 2], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x32x256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x32x4x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x32x256x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S1x32x256x256_S1x32x64x256_0_0_0_0 : ∀ a, (![0, 0, 0, 0] : Fin 4 → Nat) a + S1x32x64x256.size a ≤ S1x32x256x256.size a
  h_S1x32x64x256 : 0 < S1x32x64x256.numel
  shapeCasts_S1x32x64x256_S32x64x256 : S1x32x64x256.ShapeCasts S32x64x256
  reduces_S32x64x256_S32x256 : S32x64x256.Reduces [1] S32x256
  shapeCasts_S32x256_S32x4x64 : S32x256.ShapeCasts S32x4x64
  reduces_S32x4x64_S32x4 : S32x4x64.Reduces [2] S32x4
  inb_S1x32x256x256_S1x32x64x256_0_0_64_0 : ∀ a, (![0, 0, 64, 0] : Fin 4 → Nat) a + S1x32x64x256.size a ≤ S1x32x256x256.size a
  inb_S1x32x256x256_S1x32x64x256_0_0_128_0 : ∀ a, (![0, 0, 128, 0] : Fin 4 → Nat) a + S1x32x64x256.size a ≤ S1x32x256x256.size a
  inb_S1x32x256x256_S1x32x64x256_0_0_192_0 : ∀ a, (![0, 0, 192, 0] : Fin 4 → Nat) a + S1x32x64x256.size a ≤ S1x32x256x256.size a
  shapeCasts_S32x4_S32x1x4 : S32x4.ShapeCasts S32x1x4
  concatenates_S32x1x4_S32x1x4_S32x1x4_S32x1x4_S32x4x4_d1 : Shape.Concatenates [S32x1x4, S32x1x4, S32x1x4, S32x1x4] S32x4x4 1
  inb_S1x32x4x4_S1x32x4x4_0_0_0_0 : ∀ a, (![0, 0, 0, 0] : Fin 4 → Nat) a + S1x32x4x4.size a ≤ S1x32x4x4.size a
  h_S1x32x4x4 : 0 < S1x32x4x4.numel
  shapeCasts_S1x32x4x4_S32x4x4 : S1x32x4x4.ShapeCasts S32x4x4
  shapeCasts_S32x4x4_S1x32x4x4 : S32x4x4.ShapeCasts S1x32x4x4
  transposes_S8x64x4x4_S8x4x4x64_0_2_3_1 : S8x64x4x4.Transposes [0, 2, 3, 1] S8x4x4x64
  shapeCasts_S8x4x4x64_S8x1024 : S8x4x4x64.ShapeCasts S8x1024
  transposes_S256x1024_S1024x256_1_0 : S256x1024.Transposes [1, 0] S1024x256
  bcast_S256_S1x256_1 : S256.BroadcastsInDim S1x256 (![1] : Fin 1 → Fin S1x256.rank)
  bcast_S1x256_S8x256_0_1 : S1x256.BroadcastsInDim S8x256 (![0, 1] : Fin 2 → Fin S8x256.rank)
  bcast_S_S8x256 : S_.BroadcastsInDim S8x256 (![] : Fin 0 → Fin S8x256.rank)
  transposes_S1024x256_S256x1024_1_0 : S1024x256.Transposes [1, 0] S256x1024
  bcast_S1024_S1x1024_1 : S1024.BroadcastsInDim S1x1024 (![1] : Fin 1 → Fin S1x1024.rank)
  bcast_S1x1024_S8x1024_0_1 : S1x1024.BroadcastsInDim S8x1024 (![0, 1] : Fin 2 → Fin S8x1024.rank)
  bcast_S_S8x1024 : S_.BroadcastsInDim S8x1024 (![] : Fin 0 → Fin S8x1024.rank)
  shapeCasts_S8x1024_S8x4x4x64 : S8x1024.ShapeCasts S8x4x4x64
  transposes_S8x4x4x64_S8x64x4x4_0_3_1_2 : S8x4x4x64.Transposes [0, 3, 1, 2] S8x64x4x4
  slices_S32x4x4_o0_0_0_S32x1x4 : S32x4x4.Slices ![0, 0, 0] S32x1x4
  shapeCasts_S32x1x4_S32x4 : S32x1x4.ShapeCasts S32x4
  shapeCasts_S32x4_S32x4x1 : S32x4.ShapeCasts S32x4x1
  shapeCasts_S32x4x1_S32x4x1 : S32x4x1.ShapeCasts S32x4x1
  broadcasts_S32x4x1_S32x4x64 : S32x4x1.Broadcasts S32x4x64
  shapeCasts_S32x4x64_S32x256 : S32x4x64.ShapeCasts S32x256
  shapeCasts_S32x256_S32x1x256 : S32x256.ShapeCasts S32x1x256
  shapeCasts_S32x1x256_S32x1x256 : S32x1x256.ShapeCasts S32x1x256
  broadcasts_S32x1x256_S32x64x256 : S32x1x256.Broadcasts S32x64x256
  shapeCasts_S32x64x256_S1x32x64x256 : S32x64x256.ShapeCasts S1x32x64x256
  slices_S32x4x4_o0_1_0_S32x1x4 : S32x4x4.Slices ![0, 1, 0] S32x1x4
  slices_S32x4x4_o0_2_0_S32x1x4 : S32x4x4.Slices ![0, 2, 0] S32x1x4
  slices_S32x4x4_o0_3_0_S32x1x4 : S32x4x4.Slices ![0, 3, 0] S32x1x4
  dot_S8x1024_S1024x256_S8x256_1_0_0_1_n_n_wf : DotDims.WF S8x1024 S1024x256 S8x256 [1] [0] [0] [1] [] []
  dot_S8x256_S256x1024_S8x1024_1_0_0_1_n_n_wf : DotDims.WF S8x256 S256x1024 S8x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x256x256.size a ≤ S8x64x256x256.size a
  hwx0_0 : ∀ i : grid0.Coords, EltTy.bits .f32 = 32 ∨ (Rect.block (s := S8x64x256x256) S1x32x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x4x4.size a ≤ S8x64x4x4.size a
  hwx0_1 : ∀ i : grid0.Coords, EltTy.bits .f32 = 32 ∨ (Rect.block (s := S8x64x4x4) S1x32x4x4.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x32x256x256.size a ≤ S8x64x256x256.size a
  hwx1_0 : ∀ i : grid1.Coords, EltTy.bits .f32 = 32 ∨ (Rect.block (s := S8x64x256x256) S1x32x256x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x32x4x4.size a ≤ S8x64x4x4.size a
  hwx1_1 : ∀ i : grid1.Coords, EltTy.bits .f32 = 32 ∨ (Rect.block (s := S8x64x4x4) S1x32x4x4.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x32x256x256.size a ≤ S8x64x256x256.size a
  hwx1_2 : ∀ i : grid1.Coords, EltTy.bits .f32 = 32 ∨ (Rect.block (s := S8x64x256x256) S1x32x256x256.size (cc1_transform_2 i) (hinb1_2 i)).WholeWords (EltTy.packing .f32)

variable [Facts₀]

def dot_S8x1024_S1024x256_S8x256_1_0_0_1_n_n : DotDims S8x1024 S1024x256 S8x256 where
  lhsContracting := [1]
  rhsContracting := [0]
  lhsNonContracting := [0]
  rhsNonContracting := [1]
  lhsBatch := []
  rhsBatch := []
  wf := dot_S8x1024_S1024x256_S8x256_1_0_0_1_n_n_wf
def dot_S8x256_S256x1024_S8x1024_1_0_0_1_n_n : DotDims S8x256 S256x1024 S8x1024 where
  lhsContracting := [1]
  rhsContracting := [0]
  lhsNonContracting := [0]
  rhsNonContracting := [1]
  lhsBatch := []
  rhsBatch := []
  wf := dot_S8x256_S256x1024_S8x1024_1_0_0_1_n_n_wf

abbrev win0_0 : Pipeline.Window sig grid0 :=
  Pipeline.Window.ofSpec (Memref.whole main_arg0) S1x32x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x32x4x4.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1x32x256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S1x32x4x4.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x32x256x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where
  halias1_2 : Pipeline.Aliased win1 0 2

variable [Facts]
-- ==== ReferenceIdeal.lean ====
abbrev S8x64x256x256 : Shape := ⟨4, ![8, 64, 256, 256]⟩
abbrev S256x1024 : Shape := ⟨2, ![256, 1024]⟩
abbrev S256 : Shape := ⟨1, ![256]⟩
abbrev S1024x256 : Shape := ⟨2, ![1024, 256]⟩
abbrev S1024 : Shape := ⟨1, ![1024]⟩
abbrev S8x64x4x64x4x64 : Shape := ⟨6, ![8, 64, 4, 64, 4, 64]⟩
abbrev S_ : Shape := ⟨0, ![]⟩
abbrev S8x64x4x4 : Shape := ⟨4, ![8, 64, 4, 4]⟩
abbrev S8x4x4x64 : Shape := ⟨4, ![8, 4, 4, 64]⟩
abbrev S8x1024 : Shape := ⟨2, ![8, 1024]⟩
abbrev S8x256 : Shape := ⟨2, ![8, 256]⟩
abbrev S1x256 : Shape := ⟨2, ![1, 256]⟩
abbrev S1x1024 : Shape := ⟨2, ![1, 1024]⟩
abbrev S8x64x4x1x4x1 : Shape := ⟨6, ![8, 64, 4, 1, 4, 1]⟩

abbrev nBuf : Space → Nat
  | .hbm => 53
  | .vmem => 0
  | .smem => 0
  | _ => 0

abbrev bufTy : (tb : Table) → Fin (tcTables nBuf tb) → BufTy
  | .hbm, ⟨0, _⟩ => ⟨S8x64x256x256, .f32⟩
  | .hbm, ⟨1, _⟩ => ⟨S256x1024, .f32⟩
  | .hbm, ⟨2, _⟩ => ⟨S256, .f32⟩
  | .hbm, ⟨3, _⟩ => ⟨S1024x256, .f32⟩
  | .hbm, ⟨4, _⟩ => ⟨S1024, .f32⟩
  | .hbm, ⟨5, _⟩ => ⟨S8x64x4x64x4x64, .f32⟩
  | .hbm, ⟨6, _⟩ => ⟨S_, .f32⟩
  | .hbm, ⟨7, _⟩ => ⟨S8x64x4x4, .f32⟩
  | .hbm, ⟨8, _⟩ => ⟨S_, .f32⟩
  | .hbm, ⟨9, _⟩ => ⟨S8x64x4x4, .f32⟩
  | .hbm, ⟨10, _⟩ => ⟨S8x64x4x4, .f32⟩
  | .hbm, ⟨11, _⟩ => ⟨S8x4x4x64, .f32⟩
  | .hbm, ⟨12, _⟩ => ⟨S8x1024, .f32⟩
  | .hbm, ⟨13, _⟩ => ⟨S1024x256, .f32⟩
  | .hbm, ⟨14, _⟩ => ⟨S8x256, .f32⟩
  | .hbm, ⟨15, _⟩ => ⟨S1x256, .f32⟩
  | .hbm, ⟨16, _⟩ => ⟨S8x256, .f32⟩
  | .hbm, ⟨17, _⟩ => ⟨S8x256, .f32⟩
  | .hbm, ⟨18, _⟩ => ⟨S_, .f32⟩
  | .hbm, ⟨19, _⟩ => ⟨S8x256, .f32⟩
  | .hbm, ⟨20, _⟩ => ⟨S8x256, .f32⟩
  | .hbm, ⟨21, _⟩ => ⟨S8x256, .f32⟩
  | .hbm, ⟨22, _⟩ => ⟨S8x256, .f32⟩
  | .hbm, ⟨23, _⟩ => ⟨S8x256, .i1⟩
  | .hbm, ⟨24, _⟩ => ⟨S8x256, .f32⟩
  | .hbm, ⟨25, _⟩ => ⟨S8x256, .f32⟩
  | .hbm, ⟨26, _⟩ => ⟨S8x256, .f32⟩
  | .hbm, ⟨27, _⟩ => ⟨S8x256, .f32⟩
  | .hbm, ⟨28, _⟩ => ⟨S8x256, .f32⟩
  | .hbm, ⟨29, _⟩ => ⟨S8x256, .f32⟩
  | .hbm, ⟨30, _⟩ => ⟨S8x256, .f32⟩
  | .hbm, ⟨31, _⟩ => ⟨S8x256, .f32⟩
  | .hbm, ⟨32, _⟩ => ⟨S8x256, .f32⟩
  | .hbm, ⟨33, _⟩ => ⟨S8x256, .f32⟩
  | .hbm, ⟨34, _⟩ => ⟨S256x1024, .f32⟩
  | .hbm, ⟨35, _⟩ => ⟨S8x1024, .f32⟩
  | .hbm, ⟨36, _⟩ => ⟨S1x1024, .f32⟩
  | .hbm, ⟨37, _⟩ => ⟨S8x1024, .f32⟩
  | .hbm, ⟨38, _⟩ => ⟨S8x1024, .f32⟩
  | .hbm, ⟨39, _⟩ => ⟨S8x1024, .f32⟩
  | .hbm, ⟨40, _⟩ => ⟨S8x1024, .f32⟩
  | .hbm, ⟨41, _⟩ => ⟨S_, .f32⟩
  | .hbm, ⟨42, _⟩ => ⟨S8x1024, .f32⟩
  | .hbm, ⟨43, _⟩ => ⟨S8x1024, .f32⟩
  | .hbm, ⟨44, _⟩ => ⟨S_, .f32⟩
  | .hbm, ⟨45, _⟩ => ⟨S8x1024, .f32⟩
  | .hbm, ⟨46, _⟩ => ⟨S8x1024, .f32⟩
  | .hbm, ⟨47, _⟩ => ⟨S8x4x4x64, .f32⟩
  | .hbm, ⟨48, _⟩ => ⟨S8x64x4x4, .f32⟩
  | .hbm, ⟨49, _⟩ => ⟨S8x64x4x1x4x1, .f32⟩
  | .hbm, ⟨50, _⟩ => ⟨S8x64x4x64x4x64, .f32⟩
  | .hbm, ⟨51, _⟩ => ⟨S8x64x4x64x4x64, .f32⟩
  | .hbm, ⟨52, _⟩ => ⟨S8x64x256x256, .f32⟩
  | _, _ => ⟨S8x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_1 : Ref sig .tc := ⟨.hbm, 41, rfl⟩
abbrev main_v21 : Ref sig .tc := ⟨.hbm, 42, rfl⟩
abbrev main_v22 : Ref sig .tc := ⟨.hbm, 43, rfl⟩
abbrev main_cst_2 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩

abbrev nD : Nat := 1
abbrev τ : Topo := Topo.v7x

variable {F : FTy → Type} [FloatOps F]

class Facts₀ : Prop where
  shapeCasts_S8x64x256x256_S8x64x4x64x4x64 : S8x64x256x256.ShapeCasts S8x64x4x64x4x64
  reducesTo_S8x64x4x64x4x64_S8x64x4x4_d3_5 : S8x64x4x64x4x64.ReducesTo [3, 5] S8x64x4x4
  h_S_ : 0 < S_.numel
  bcast_S_S8x64x4x4 : S_.BroadcastsInDim S8x64x4x4 (![] : Fin 0 → Fin S8x64x4x4.rank)
  transposes_S8x64x4x4_S8x4x4x64_0_2_3_1 : S8x64x4x4.Transposes [0, 2, 3, 1] S8x4x4x64
  shapeCasts_S8x4x4x64_S8x1024 : S8x4x4x64.ShapeCasts S8x1024
  transposes_S256x1024_S1024x256_1_0 : S256x1024.Transposes [1, 0] S1024x256
  bcast_S256_S1x256_1 : S256.BroadcastsInDim S1x256 (![1] : Fin 1 → Fin S1x256.rank)
  bcast_S1x256_S8x256_0_1 : S1x256.BroadcastsInDim S8x256 (![0, 1] : Fin 2 → Fin S8x256.rank)
  bcast_S_S8x256 : S_.BroadcastsInDim S8x256 (![] : Fin 0 → Fin S8x256.rank)
  transposes_S1024x256_S256x1024_1_0 : S1024x256.Transposes [1, 0] S256x1024
  bcast_S1024_S1x1024_1 : S1024.BroadcastsInDim S1x1024 (![1] : Fin 1 → Fin S1x1024.rank)
  bcast_S1x1024_S8x1024_0_1 : S1x1024.BroadcastsInDim S8x1024 (![0, 1] : Fin 2 → Fin S8x1024.rank)
  bcast_S_S8x1024 : S_.BroadcastsInDim S8x1024 (![] : Fin 0 → Fin S8x1024.rank)
  shapeCasts_S8x1024_S8x4x4x64 : S8x1024.ShapeCasts S8x4x4x64
  transposes_S8x4x4x64_S8x64x4x4_0_3_1_2 : S8x4x4x64.Transposes [0, 3, 1, 2] S8x64x4x4
  bcast_S8x64x4x4_S8x64x4x1x4x1_0_1_2_4 : S8x64x4x4.BroadcastsInDim S8x64x4x1x4x1 (![0, 1, 2, 4] : Fin 4 → Fin S8x64x4x1x4x1.rank)
  bcast_S8x64x4x1x4x1_S8x64x4x64x4x64_0_1_2_3_4_5 : S8x64x4x1x4x1.BroadcastsInDim S8x64x4x64x4x64 (![0, 1, 2, 3, 4, 5] : Fin 6 → Fin S8x64x4x64x4x64.rank)
  shapeCasts_S8x64x4x64x4x64_S8x64x256x256 : S8x64x4x64x4x64.ShapeCasts S8x64x256x256
  dot_S8x1024_S1024x256_S8x256_1_0_0_1_n_n_wf : DotDims.WF S8x1024 S1024x256 S8x256 [1] [0] [0] [1] [] []
  dot_S8x256_S256x1024_S8x1024_1_0_0_1_n_n_wf : DotDims.WF S8x256 S256x1024 S8x1024 [1] [0] [0] [1] [] []

variable [Facts₀]

def dot_S8x1024_S1024x256_S8x256_1_0_0_1_n_n : DotDims S8x1024 S1024x256 S8x256 where
  lhsContracting := [1]
  rhsContracting := [0]
  lhsNonContracting := [0]
  rhsNonContracting := [1]
  lhsBatch := []
  rhsBatch := []
  wf := dot_S8x1024_S1024x256_S8x256_1_0_0_1_n_n_wf
def dot_S8x256_S256x1024_S8x1024_1_0_0_1_n_n : DotDims S8x256 S256x1024 S8x1024 where
  lhsContracting := [1]
  rhsContracting := [0]
  lhsNonContracting := [0]
  rhsNonContracting := [1]
  lhsBatch := []
  rhsBatch := []
  wf := dot_S8x256_S256x1024_S8x1024_1_0_0_1_n_n_wf

class Facts : Prop extends Facts₀ where

variable [Facts]
-- ==== Proof.KernelRun.lean ====
/-
  The kernel program's run with its RESULT named: every weakly fair execution of @main terminates, nothing faulting,
  with the result buffer at the contents the run's last boundary records for it and the arguments as launched.
  @main is cut into its segments — the two regions and the three stretches of host operations between them —
  and launched from the initial memory; the final state is read at every unscoped buffer against the last boundary's
  contents, so besides the five argument buffers (which walk back to the launch memory) the result buffer is read.
-/
import proofs.«151694_j55224689492533_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates with the result buffer at the last boundary's contents for it and
    the argument buffers as launched. -/
theorem run : θ_run defs (onTc (τ := τ) (main (F := F))) ⟨m, fun _ => 0, ρ⟩ (fun r => ∀ c : Dev nD,
      r.2.mem ((c.tc : Thread nD τ).loc main_v24) = W5 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v24 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.RunValue

end
-- ==== Proof.Spec.lean ====
/-
  The function both programs compute, on extended reals. An image tensor t[b, c, h, w] of 8 × 64 channels of
  256 × 256 pixels is cut into a 4 × 4 grid of 64 × 64 patches. `pool` is each patch's mean: the sum of its
  4096 pixels times 1/4096 (the kernel multiplies by the f32 word of 2⁻¹², the reference divides by 4096: one
  number on every extended real). `gate` multiplies every pixel by a gate that depends only on its batch,
  channel and patch. Between the two sits a small perceptron on the pooled means, which both programs spell
  with the same host operations; it is carried as one function and never opened.
-/
import Idealize.ShloMosaic.Lib.ValueIdx
import Idealize.ShloMosaic.PureOps.Ideal.Laws

noncomputable section

open scoped BigOperators

namespace Cert.Spec

open Idealize.ShloMosaic Idealize.ShloMosaic.ValueIdx

/-- The image tensor's shape: batch, channel, height, width. -/
abbrev ST : Shape := ⟨4, ![8, 64, 256, 256]⟩
/-- One number per batch, channel, patch row and patch column. -/
abbrev SP : Shape := ⟨4, ![8, 64, 4, 4]⟩

/-- Pixel `r` of patch `p`, along an axis of 4 patches of 64 pixels. -/
def pix (p : Fin 4) (r : Fin 64) : Fin 256 := ⟨p.val * 64 + r.val, by omega⟩
/-- The patch a pixel lies in. -/
def patch (h : Fin 256) : Fin 4 := ⟨h.val / 64, by omega⟩

theorem pix_val (p : Fin 4) (r : Fin 64) : (pix p r).val = p.val * 64 + r.val := rfl
theorem patch_val (h : Fin 256) : (patch h).val = h.val / 64 := rfl

/-- The f32 word `0x39800000` denotes 2⁻¹² = 1/4096. -/
theorem ofBits_inv4096 : Ideal.ofBits .f32 0x39800000#32 = ((1 / 4096 : ℝ) : EReal) := by
  simp [Ideal.ofBits, Ideal.ieee, -EReal.coe_mul]; norm_num
/-- The f32 word `0x45800000` denotes 4096. -/
theorem ofBits_4096 : Ideal.ofBits .f32 0x45800000#32 = ((4096 : ℝ) : EReal) := by
  simp [Ideal.ofBits, Ideal.ieee, -EReal.coe_mul]; norm_num

/-- The mean of patch (ph, pw) of channel `c` of image `b`: the sum over the patch's columns of the sums over
    its rows, times 2⁻¹². -/
def poolAt (t : ST.Idx → EReal) (b : Fin 8) (c : Fin 64) (ph pw : Fin 4) : EReal :=
  (∑ q : Fin 64, ∑ r : Fin 64, t (ix4 b c (pix ph r) (pix pw q))) * Ideal.ofBits .f32 0x39800000#32

/-- All the patch means. -/
def pool (t : ST.Idx → EReal) : SP.Idx → EReal := fun i => poolAt t (i 0) (i 1) (i 2) (i 3)

theorem pool_ix4 (t : ST.Idx → EReal) (b : Fin 8) (c : Fin 64) (ph pw : Fin 4) :
    pool t (ix4 b c ph pw) = poolAt t b c ph pw := rfl

/-- Every pixel times the gate of its batch, channel and patch. -/
def gate (t : ST.Idx → EReal) (g : SP.Idx → EReal) : ST.Idx → EReal :=
  fun i => t i * g (ix4 (n0 := 8) (n1 := 64) (i 0) (i 1) (patch (i 2)) (patch (i 3)))

theorem gate_ix4 (t : ST.Idx → EReal) (g : SP.Idx → EReal) (b : Fin 8) (c : Fin 64) (h w : Fin 256) :
    gate t g (ix4 b c h w) = t (ix4 b c h w) * g (ix4 b c (patch h) (patch w)) := rfl

end Cert.Spec

end
-- ==== Proof.Band.lean ====
/-
  A band of 64 rows of a [1, 32, 256, 256] image block, loaded through its rectangle, read at an index.
-/
import proofs.«151694_j55224689492533_2_alg».proof.Proof.Gen.KernelIdeal.Frame
import proofs.«151694_j55224689492533_2_alg».proof.Proof.Spec
import Idealize.ShloMosaic.Lib.Pipeline.Value

noncomputable section

namespace Cert.KernelIdeal.Band

open Cert.KernelIdeal Cert.KernelIdeal.Gen Idealize.ShloMosaic Idealize.ShloMosaic.ValueIdx Cert.Spec

theorem zero4 : (![0, 0, 0, 0] : Fin 4 → Nat) = fun _ => 0 := funext fun a => by fin_cases a <;> rfl

/-- Entry (c, r, w) of band `k` sits in the block at row `k · 64 + r`. -/
theorem emb_band (k : Fin 4) (off : Fin 4 → Nat) (hoff : off = ![0, 0, k.val * 64, 0])
    (inb : ∀ a, off a + S1x32x64x256.size a ≤ S1x32x256x256.size a) (a : Fin 1) (c : Fin 32) (r : Fin 64) (w : Fin 256) :
    (Rect.unit (s := S1x32x256x256) off S1x32x64x256.size inb).emb (ix4 a c r w) = ix4 a c (pix k r) w := by
  subst hoff
  refine funext fun b => Fin.ext ?_
  match b with
  | ⟨0, _⟩ => show 0 + 1 * a.val = a.val; omega
  | ⟨1, _⟩ => show 0 + 1 * c.val = c.val; omega
  | ⟨2, _⟩ => show k.val * 64 + 1 * r.val = k.val * 64 + r.val; omega
  | ⟨3, _⟩ => show 0 + 1 * w.val = w.val; omega

/-- Band `k` of a block, loaded through the rectangle of its 64 rows: entry (c, r, w) is the block's entry at row
    `k · 64 + r`. -/
theorem ld_band (x0 : Vec Ideal S1x32x256x256 .f32) (k : Fin 4) (off : Fin 4 → Nat) (hoff : off = ![0, 0, k.val * 64, 0])
    (inb : ∀ a, off a + S1x32x64x256.size a ≤ S1x32x256x256.size a) (a : Fin 1) (c : Fin 32) (r : Fin 64) (w : Fin 256) :
    View.ld x0 (Rect.unit (s := S1x32x256x256) off S1x32x64x256.size inb) (ix4 a c r w) = x0 (ix4 a c (pix k r) w) :=
  congrArg x0 (emb_band k off hoff inb a c r w)

end Cert.KernelIdeal.Band

end
-- ==== Proof.LibPatchBand.lean ====
/-
  Two readings of a band of 64 image rows (a [1, 32, 64, 256] block: 32 channels, 64 rows, 256 columns) at an index.
  `band_pool`: summing the band over its rows, viewing the 256 columns as 4 groups of 64 and summing each group
  gives, at (channel, group), the double sum over the group's columns and the band's rows.
  `band_gate`: a [32, 1, 4] row of per-group factors, spread over 64 columns per group and over the 64 rows,
  multiplies each entry of the band by the factor of its column's group.
  Also: a concatenation of four [32, 1, 4] rows along the middle axis read at (c, k, p) is row k at (c, 0, p), and
  a one-row slice of a [32, 4, 4] block at row k read at (c, 0, p) is the block at (c, k, p).
-/
import Idealize.ShloMosaic.Lib.ValueIdx
import Idealize.ShloMosaic.Lib.Pipeline.Value
import Idealize.ShloMosaic.PureOps.Ideal.Laws
import proofs.«151694_j55224689492533_2_alg».proof.Proof.Spec

noncomputable section

open scoped BigOperators

namespace Cert.PatchBand

open Idealize.ShloMosaic Idealize.ShloMosaic.ValueIdx Cert.Spec

/-- Rows summed, then each group of 64 columns summed: at (c, pw) the sum over the group's columns of the sums
    over the band's rows. -/
theorem band_pool (v : FVec Ideal (⟨4, ![1, 32, 64, 256]⟩ : Shape) .f32)
    (h1 : Shape.ShapeCasts ⟨4, ![1, 32, 64, 256]⟩ ⟨3, ![32, 64, 256]⟩)
    (h2 : Shape.Reduces ⟨3, ![32, 64, 256]⟩ [1] ⟨2, ![32, 256]⟩)
    (h3 : Shape.ShapeCasts ⟨2, ![32, 256]⟩ ⟨3, ![32, 4, 64]⟩)
    (h4 : Shape.Reduces ⟨3, ![32, 4, 64]⟩ [2] ⟨2, ![32, 4]⟩)
    (hφ : FKind.Formats .f32) (hacc : (0x00000000#32 : BitVec 32) = FKind.add.neutral .f32 hφ)
    (c : Fin 32) (pw : Fin 4) :
    multiReduction .add [2] ⟨2, ![32, 4]⟩
        (shapeCast ⟨3, ![32, 4, 64]⟩
          (multiReduction .add [1] ⟨2, ![32, 256]⟩ (shapeCast ⟨3, ![32, 64, 256]⟩ v h1) 0x00000000#32 h2 hφ hacc) h3)
        0x00000000#32 h4 hφ hacc (ix2 c pw)
      = ∑ q : Fin 64, ∑ r : Fin 64, v (ix4 0 c r (pix pw q)) := by
  rw [Ideal.multiReduction_add_single]
  show ∑ q : Fin 64, _ = _
  refine Finset.sum_congr rfl fun q _ => ?_
  refine (shapeCast_apply _ h3 _ (ix2 c (pix pw q)) ?_).trans ?_
  · rewrite [Shape.rowMajor_val_two, Shape.rowMajor_val_three]
    show c.val * 256 + (pw.val * 64 + q.val) = (c.val * 4 + pw.val) * 64 + q.val
    omega
  rw [Ideal.multiReduction_add_single]
  show ∑ r : Fin 64, _ = _
  refine Finset.sum_congr rfl fun r _ => ?_
  refine shapeCast_apply _ h1 _ (ix4 0 c r (pix pw q)) ?_
  rewrite [Shape.rowMajor_val_four, Shape.rowMajor_val_three]
  show ((0 * 32 + c.val) * 64 + r.val) * 256 + (pw.val * 64 + q.val) = (c.val * 64 + r.val) * 256 + (pw.val * 64 + q.val)
  omega

/-- A [32, 1, 4] row of factors spread over the band: entry (c, r, w) of the band times the factor of channel `c`
    and of the group of 64 columns that holds `w`. -/
theorem band_gate (band : FVec Ideal (⟨4, ![1, 32, 64, 256]⟩ : Shape) .f32) (g : FVec Ideal (⟨3, ![32, 1, 4]⟩ : Shape) .f32)
    (h1 : Shape.ShapeCasts ⟨4, ![1, 32, 64, 256]⟩ ⟨3, ![32, 64, 256]⟩)
    (h5 : Shape.ShapeCasts ⟨3, ![32, 1, 4]⟩ ⟨2, ![32, 4]⟩)
    (h6 : Shape.ShapeCasts ⟨2, ![32, 4]⟩ ⟨3, ![32, 4, 1]⟩)
    (h7 : Shape.ShapeCasts ⟨3, ![32, 4, 1]⟩ ⟨3, ![32, 4, 1]⟩)
    (h8 : Shape.Broadcasts ⟨3, ![32, 4, 1]⟩ ⟨3, ![32, 4, 64]⟩)
    (h9 : Shape.ShapeCasts ⟨3, ![32, 4, 64]⟩ ⟨2, ![32, 256]⟩)
    (h10 : Shape.ShapeCasts ⟨2, ![32, 256]⟩ ⟨3, ![32, 1, 256]⟩)
    (h11 : Shape.ShapeCasts ⟨3, ![32, 1, 256]⟩ ⟨3, ![32, 1, 256]⟩)
    (h12 : Shape.Broadcasts ⟨3, ![32, 1, 256]⟩ ⟨3, ![32, 64, 256]⟩)
    (h16 : Shape.ShapeCasts ⟨3, ![32, 64, 256]⟩ ⟨4, ![1, 32, 64, 256]⟩)
    (a : Fin 1) (c : Fin 32) (r : Fin 64) (w : Fin 256) :
    shapeCast ⟨4, ![1, 32, 64, 256]⟩
        (mulf (shapeCast ⟨3, ![32, 64, 256]⟩ band h1)
          (broadcastTo ⟨3, ![32, 64, 256]⟩
            (shapeCast ⟨3, ![32, 1, 256]⟩
              (shapeCast ⟨3, ![32, 1, 256]⟩
                (shapeCast ⟨2, ![32, 256]⟩
                  (broadcastTo ⟨3, ![32, 4, 64]⟩
                    (shapeCast ⟨3, ![32, 4, 1]⟩ (shapeCast ⟨3, ![32, 4, 1]⟩ (shapeCast ⟨2, ![32, 4]⟩ g h5) h6) h7) h8) h9) h10) h11) h12))
        h16 (ix4 a c r w)
      = band (ix4 a c r w) * g (ix3 c 0 (patch w)) := by
  have ha : a.val = 0 := by have := a.isLt; omega
  have hw : w.val < 256 := w.isLt
  refine (shapeCast_apply _ h16 _ (ix3 c r w) ?_).trans ?_
  · rewrite [Shape.rowMajor_val_four, Shape.rowMajor_val_three]
    show (c.val * 64 + r.val) * 256 + w.val = ((a.val * 32 + c.val) * 64 + r.val) * 256 + w.val
    omega
  refine congrArg₂ (· * ·) ?_ ?_
  · refine shapeCast_apply _ h1 _ (ix4 a c r w) ?_
    rewrite [Shape.rowMajor_val_four, Shape.rowMajor_val_three]
    show ((a.val * 32 + c.val) * 64 + r.val) * 256 + w.val = (c.val * 64 + r.val) * 256 + w.val
    omega
  refine (broadcastTo_apply _ h12 _ (ix3 c 0 w) (fun b => match b with
    | ⟨0, _⟩ => rfl
    | ⟨1, _⟩ => rfl
    | ⟨2, _⟩ => rfl)).trans ?_
  refine (congrFun (shapeCast_self _ h11) _).trans ?_
  refine (shapeCast_apply _ h10 _ (ix2 c w) ?_).trans ?_
  · rewrite [Shape.rowMajor_val_two, Shape.rowMajor_val_three]
    show c.val * 256 + w.val = (c.val * 1 + 0) * 256 + w.val
    omega
  refine (shapeCast_apply _ h9 _ (ix3 c (patch w) ⟨w.val % 64, Nat.mod_lt _ (by decide)⟩) ?_).trans ?_
  · rewrite [Shape.rowMajor_val_two, Shape.rowMajor_val_three]
    show (c.val * 4 + w.val / 64) * 64 + w.val % 64 = c.val * 256 + w.val
    omega
  refine (broadcastTo_apply _ h8 _ (ix3 c (patch w) 0) (fun b => match b with
    | ⟨0, _⟩ => rfl
    | ⟨1, _⟩ => rfl
    | ⟨2, _⟩ => rfl)).trans ?_
  refine (congrFun (shapeCast_self _ h7) _).trans ?_
  refine (shapeCast_apply _ h6 _ (ix2 c (patch w)) ?_).trans ?_
  · rewrite [Shape.rowMajor_val_two, Shape.rowMajor_val_three]
    show c.val * 4 + w.val / 64 = (c.val * 4 + w.val / 64) * 1 + 0
    omega
  refine shapeCast_apply _ h5 _ (ix3 c 0 (patch w)) ?_
  rewrite [Shape.rowMajor_val_two, Shape.rowMajor_val_three]
  show (c.val * 1 + 0) * 4 + w.val / 64 = c.val * 4 + w.val / 64
  omega

/-- A [32, 1, 4] row viewed as [32, 4] and back reads the same entry. -/
theorem row_cast (x : FVec Ideal (⟨2, ![32, 4]⟩ : Shape) .f32) (h : Shape.ShapeCasts ⟨2, ![32, 4]⟩ ⟨3, ![32, 1, 4]⟩)
    (c : Fin 32) (p : Fin 4) : shapeCast ⟨3, ![32, 1, 4]⟩ x h (ix3 c 0 p) = x (ix2 c p) := by
  refine shapeCast_apply _ h _ (ix2 c p) ?_
  rewrite [Shape.rowMajor_val_two, Shape.rowMajor_val_three]
  show c.val * 4 + p.val = (c.val * 1 + 0) * 4 + p.val
  omega

section Rows
variable {α : Type}

/-- Row `k` of a [32, 4, 4] block, sliced out as a [32, 1, 4] row, read at (c, 0, p). -/
theorem row_slice (x : (⟨3, ![32, 4, 4]⟩ : Shape).Idx → α) (k : Fin 4) (off : Fin 3 → Nat) (hoff : off = ![0, k.val, 0])
    (h : Shape.Slices (⟨3, ![32, 4, 4]⟩ : Shape) off ⟨3, ![32, 1, 4]⟩) (c : Fin 32) (p : Fin 4) :
    extractStridedSlice ⟨3, ![32, 1, 4]⟩ off x h (ix3 c 0 p) = x (ix3 c k p) := by
  subst hoff
  refine extractStridedSlice_apply _ x h _ (ix3 c k p) (fun b => match b with
    | ⟨0, _⟩ => by show c.val = 0 + c.val; omega
    | ⟨1, _⟩ => by show k.val = k.val + 0; omega
    | ⟨2, _⟩ => by show p.val = 0 + p.val; omega)

/-- Four [32, 1, 4] rows stacked along the middle axis: the stack at (c, k, p) is row `k` at (c, 0, p). -/
theorem stack4_apply (v0 v1 v2 v3 : (⟨3, ![32, 1, 4]⟩ : Shape).Idx → α)
    (h : Shape.Concatenates (([⟨_, v0⟩, ⟨_, v1⟩, ⟨_, v2⟩, ⟨_, v3⟩] : List ((s : Shape) × (s.Idx → α))).map (·.1))
      (⟨3, ![32, 4, 4]⟩ : Shape) 1)
    (c : Fin 32) (k : Fin 4) (p : Fin 4) :
    concatenate (⟨3, ![32, 4, 4]⟩ : Shape) 1 [⟨_, v0⟩, ⟨_, v1⟩, ⟨_, v2⟩, ⟨_, v3⟩] h (ix3 c k p)
      = (![v0, v1, v2, v3] : Fin 4 → (⟨3, ![32, 1, 4]⟩ : Shape).Idx → α) k (ix3 c 0 p) := by
  have hi : ∀ b : Fin 3, b.cast (rfl : (3 : Nat) = 3) ≠ (1 : Fin 3) →
      ((ix3 c (0 : Fin 1) p : (⟨3, ![32, 1, 4]⟩ : Shape).Idx) b).val = ((ix3 c k p : (⟨3, ![32, 4, 4]⟩ : Shape).Idx) (b.cast rfl)).val :=
    fun b hb => match b with
      | ⟨0, _⟩ => rfl
      | ⟨1, _⟩ => absurd rfl hb
      | ⟨2, _⟩ => rfl
  match k with
  | ⟨0, _⟩ => exact concatenate_apply_piece 1 _ h _ 0 (by show 0 < 4; omega) _ v0 rfl rfl 0 rfl (ix3 c 0 p) hi rfl
  | ⟨1, _⟩ => exact concatenate_apply_piece 1 _ h _ 1 (by show 1 < 4; omega) _ v1 rfl rfl 1 rfl (ix3 c 0 p) hi rfl
  | ⟨2, _⟩ => exact concatenate_apply_piece 1 _ h _ 2 (by show 2 < 4; omega) _ v2 rfl rfl 2 rfl (ix3 c 0 p) hi rfl
  | ⟨3, _⟩ => exact concatenate_apply_piece 1 _ h _ 3 (by show 3 < 4; omega) _ v3 rfl rfl 3 rfl (ix3 c 0 p) hi rfl

variable (v0 v1 v2 v3 : (⟨3, ![32, 1, 4]⟩ : Shape).Idx → α)
    (h : Shape.Concatenates (([⟨_, v0⟩, ⟨_, v1⟩, ⟨_, v2⟩, ⟨_, v3⟩] : List ((s : Shape) × (s.Idx → α))).map (·.1))
      (⟨3, ![32, 4, 4]⟩ : Shape) 1) (c : Fin 32) (p : Fin 4)

theorem stack4_0 (hk : 0 < 4) :
    concatenate (⟨3, ![32, 4, 4]⟩ : Shape) 1 [⟨_, v0⟩, ⟨_, v1⟩, ⟨_, v2⟩, ⟨_, v3⟩] h (ix3 c ⟨0, hk⟩ p) = v0 (ix3 c 0 p) :=
  stack4_apply v0 v1 v2 v3 h c ⟨0, hk⟩ p
theorem stack4_1 (hk : 1 < 4) :
    concatenate (⟨3, ![32, 4, 4]⟩ : Shape) 1 [⟨_, v0⟩, ⟨_, v1⟩, ⟨_, v2⟩, ⟨_, v3⟩] h (ix3 c ⟨1, hk⟩ p) = v1 (ix3 c 0 p) :=
  stack4_apply v0 v1 v2 v3 h c ⟨1, hk⟩ p
theorem stack4_2 (hk : 2 < 4) :
    concatenate (⟨3, ![32, 4, 4]⟩ : Shape) 1 [⟨_, v0⟩, ⟨_, v1⟩, ⟨_, v2⟩, ⟨_, v3⟩] h (ix3 c ⟨2, hk⟩ p) = v2 (ix3 c 0 p) :=
  stack4_apply v0 v1 v2 v3 h c ⟨2, hk⟩ p
theorem stack4_3 (hk : 3 < 4) :
    concatenate (⟨3, ![32, 4, 4]⟩ : Shape) 1 [⟨_, v0⟩, ⟨_, v1⟩, ⟨_, v2⟩, ⟨_, v3⟩] h (ix3 c ⟨3, hk⟩ p) = v3 (ix3 c 0 p) :=
  stack4_apply v0 v1 v2 v3 h c ⟨3, hk⟩ p

end Rows

end Cert.PatchBand

end
-- ==== Proof.PoolBody.lean ====
/-
  What the pooling body leaves in its output block, read at an index: from a [1, 32, 256, 256] block of the image
  (32 channels of one batch entry) it stores, at (channel c, patch row ph, patch column pw), the sum of that patch's
  4096 pixels — columns outside, rows inside — times 2⁻¹². The four bands of 64 rows are the four patch rows.
-/
import proofs.«151694_j55224689492533_2_alg».proof.Proof.Band
import proofs.«151694_j55224689492533_2_alg».proof.Proof.LibPatchBand
import Idealize.ShloMosaic.Lib.Pipeline.Value

noncomputable section

open scoped BigOperators

namespace Cert.KernelIdeal.PoolBody

open Cert.KernelIdeal Cert.KernelIdeal.Gen Idealize.ShloMosaic Idealize.ShloMosaic.ValueIdx Cert.Spec Cert.PatchBand Cert.KernelIdeal.Band

/-- The pooling body's stored block at (c, ph, pw): the patch's sum times 2⁻¹². -/
theorem out0_1_apply (x0 : Vec Ideal S1x32x256x256 .f32) (a : Fin 1) (c : Fin 32) (ph pw : Fin 4) :
    out0_1 (F := Ideal) x0 (ix4 a c ph pw)
      = (∑ q : Fin 64, ∑ r : Fin 64, x0 (ix4 0 c (pix ph r) (pix pw q))) * Ideal.ofBits .f32 0x39800000#32 := by
  have ha : a.val = 0 := by have := a.isLt; omega
  unfold out0_1
  rw [View.canon_unit_zero zero4]
  unfold k0_pay1 k0_pay2
  dsimp only
  refine (shapeCast_apply _ _ _ (ix3 c ph pw) ?_).trans ?_
  · rewrite [Shape.rowMajor_val_four, Shape.rowMajor_val_three]
    show (c.val * 4 + ph.val) * 4 + pw.val = ((a.val * 32 + c.val) * 4 + ph.val) * 4 + pw.val
    omega
  refine congrArg₂ (· * ·) ?_ rfl
  match ph with
  | ⟨0, _⟩ =>
    refine (stack4_0 _ _ _ _ _ c pw _).trans ?_
    refine (row_cast _ _ c pw).trans ?_
    refine (band_pool _ _ _ _ _ _ _ c pw).trans ?_
    exact Finset.sum_congr rfl fun q _ => Finset.sum_congr rfl fun r _ => ld_band x0 0 _ rfl _ 0 c r (pix pw q)
  | ⟨1, _⟩ =>
    refine (stack4_1 _ _ _ _ _ c pw _).trans ?_
    refine (row_cast _ _ c pw).trans ?_
    refine (band_pool _ _ _ _ _ _ _ c pw).trans ?_
    exact Finset.sum_congr rfl fun q _ => Finset.sum_congr rfl fun r _ => ld_band x0 1 _ rfl _ 0 c r (pix pw q)
  | ⟨2, _⟩ =>
    refine (stack4_2 _ _ _ _ _ c pw _).trans ?_
    refine (row_cast _ _ c pw).trans ?_
    refine (band_pool _ _ _ _ _ _ _ c pw).trans ?_
    exact Finset.sum_congr rfl fun q _ => Finset.sum_congr rfl fun r _ => ld_band x0 2 _ rfl _ 0 c r (pix pw q)
  | ⟨3, _⟩ =>
    refine (stack4_3 _ _ _ _ _ c pw _).trans ?_
    refine (row_cast _ _ c pw).trans ?_
    refine (band_pool _ _ _ _ _ _ _ c pw).trans ?_
    exact Finset.sum_congr rfl fun q _ => Finset.sum_congr rfl fun r _ => ld_band x0 3 _ rfl _ 0 c r (pix pw q)

end Cert.KernelIdeal.PoolBody

end
-- ==== Proof.PoolRegion.lean ====
/-
  The pooling region's output array after its 16 grid points, whatever the buffers hold when the region is
  entered: grid point (b, half) reads channels half · 32 … half · 32 + 31 of image b and writes the same channels
  of the pooled array, so the blocks tile the pooled array and every entry ends at its patch's mean.
-/
import proofs.«151694_j55224689492533_2_alg».proof.Proof.PoolBody

noncomputable section

open scoped BigOperators

namespace Cert.KernelIdeal.PoolRegion

open Cert.KernelIdeal Cert.KernelIdeal.Gen Idealize.ShloMosaic Idealize.ShloMosaic.TcCoe Idealize.ShloMosaic.ValueIdx
open Idealize.SL.Sem Cert.Spec Cert.KernelIdeal.PoolBody Cert.KernelIdeal.Band
open Idealize.ShloMosaic.Pipeline (Dat Cfg Window)

variable (V : (c : Dev nD) → (b : Ref sig .tc) → Buf (Elt Ideal) ((c : Thread nD τ).loc b))

/-- The two windows' block indices at every grid point: the same image and channel half, the whole patch grid and the
    whole picture. -/
theorem idx_facts : ∀ t : Fin cfg0.N,
    win0_0.index t (0 : Fin 4) = win0_1.index t (0 : Fin 4) ∧ win0_0.index t (1 : Fin 4) = win0_1.index t (1 : Fin 4)
    ∧ win0_0.index t (2 : Fin 4) = 0 ∧ win0_0.index t (3 : Fin 4) = 0
    ∧ win0_1.index t (2 : Fin 4) = 0 ∧ win0_1.index t (3 : Fin 4) = 0
    ∧ win0_1.index t (0 : Fin 4) ≤ 7 ∧ win0_1.index t (1 : Fin 4) ≤ 1 :=
  (by decide +kernel : ∀ t : Fin grid0.N, _)

/-- Every (image, channel half) is some grid point's. -/
theorem idx_onto : ∀ (q0 : Fin 8) (q1 : Fin 2), ∃ t : Fin cfg0.N, win0_1.index t = ![q0.val, q1.val, 0, 0] :=
  (by decide +kernel : ∀ (q0 : Fin 8) (q1 : Fin 2), ∃ t : Fin grid0.N, win0_1.index t = ![q0.val, q1.val, 0, 0])

/-- The image block of a grid point read at (channel, row, column): the image at the point's batch entry and at the
    point's half of the channels. -/
theorem iblk_apply (c : Dev nD) (t : Fin cfg0.N) (a : Fin 1) (cc : Fin 32) (h w : Fin 256) (B : Fin 8) (C : Fin 64)
    (hB : B.val = win0_0.index t (0 : Fin 4)) (hC : C.val = win0_0.index t (1 : Fin 4) * 32 + cc.val)
    (h2 : win0_0.index t (2 : Fin 4) = 0) (h3 : win0_0.index t (3 : Fin 4) = 0) :
    iblk0 V c 0 t (ix4 a cc h w) = V c main_arg0 (ix4 B C h w) := by
  have ha : a.val = 0 := by have := a.isLt; omega
  show V c main_arg0 (((cfg0.win 0).blk t).view.emb (ix4 a cc h w)) = V c main_arg0 (ix4 B C h w)
  refine congrArg (V c main_arg0) (funext fun b => Fin.ext ?_)
  match b with
  | ⟨0, _⟩ => show win0_0.index t (0 : Fin 4) * 1 + 1 * a.val = B.val; omega
  | ⟨1, _⟩ => show win0_0.index t (1 : Fin 4) * 32 + 1 * cc.val = C.val; omega
  | ⟨2, _⟩ => show win0_0.index t (2 : Fin 4) * 256 + 1 * h.val = h.val; omega
  | ⟨3, _⟩ => show win0_0.index t (3 : Fin 4) * 256 + 1 * w.val = w.val; omega

/-- What grid point `t` writes back is its block of the patch means of the image as the region finds it. -/
theorem flushed_eq (c : Dev nD) (t : Fin cfg0.N) :
    (dat0 V c).flushed 1 t = ((cfg0.win 1).blk t).view.read (Elt Ideal) (pool (V c main_arg0)) := by
  show (cfg0.win 1).cut (grid0.coords t) ((dat0 V c).after 1 t) = _
  rw [after0_1]
  obtain ⟨e0, e1, e2, e3, e4, e5, e6, e7⟩ := idx_facts t
  funext y
  have y0 : (y 0).val < 1 := (y 0).isLt
  have y1 : (y 1).val < 32 := (y 1).isLt
  have y2 : (y 2).val < 4 := (y 2).isLt
  have y3 : (y 3).val < 4 := (y 3).isLt
  have hy : y = ix4 (⟨(y 0).val, y0⟩ : Fin 1) (⟨(y 1).val, y1⟩ : Fin 32) (⟨(y 2).val, y2⟩ : Fin 4) (⟨(y 3).val, y3⟩ : Fin 4) :=
    funext fun a => match a with
      | ⟨0, _⟩ => rfl
      | ⟨1, _⟩ => rfl
      | ⟨2, _⟩ => rfl
      | ⟨3, _⟩ => rfl
  have hemb : ((cfg0.win 1).blk t).view.emb y
      = ix4 (⟨win0_1.index t (0 : Fin 4), by omega⟩ : Fin 8) (⟨win0_1.index t (1 : Fin 4) * 32 + (y 1).val, by omega⟩ : Fin 64)
          (⟨(y 2).val, y2⟩ : Fin 4) (⟨(y 3).val, y3⟩ : Fin 4) :=
    funext fun a => Fin.ext (match a with
      | ⟨0, _⟩ => by show win0_1.index t (0 : Fin 4) * 1 + 1 * (y 0).val = win0_1.index t (0 : Fin 4); omega
      | ⟨1, _⟩ => by show win0_1.index t (1 : Fin 4) * 32 + 1 * (y 1).val = win0_1.index t (1 : Fin 4) * 32 + (y 1).val; omega
      | ⟨2, _⟩ => by show win0_1.index t (2 : Fin 4) * 4 + 1 * (y 2).val = (y 2).val; omega
      | ⟨3, _⟩ => by show win0_1.index t (3 : Fin 4) * 4 + 1 * (y 3).val = (y 3).val; omega)
  show out0_1 (iblk0 V c 0 t) y = pool (V c main_arg0) (((cfg0.win 1).blk t).view.emb y)
  refine (congrArg (out0_1 (iblk0 V c 0 t)) hy).trans ?_
  refine (out0_1_apply _ _ _ _ _).trans ?_
  refine Eq.trans ?_ (congrArg (pool (V c main_arg0)) hemb).symm
  refine Eq.trans ?_ (pool_ix4 _ _ _ _ _).symm
  unfold poolAt
  refine congrArg (· * Ideal.ofBits .f32 0x39800000#32) ?_
  refine Finset.sum_congr rfl fun q _ => Finset.sum_congr rfl fun r _ => ?_
  exact iblk_apply V c t 0 _ _ _ _ _ (by show win0_1.index t (0 : Fin 4) = win0_0.index t (0 : Fin 4); omega)
    (by show win0_1.index t (1 : Fin 4) * 32 + (y 1).val = win0_0.index t (1 : Fin 4) * 32 + (y 1).val; omega) e2 e3

/-- An index of the pooled array is in grid point `t`'s block iff each coordinate is in the block's range. -/
theorem mem_blk (t : Fin cfg0.N) (i : S8x64x4x4.Idx) :
    i ∈ ((cfg0.win 1).blk t).view.set ↔ ∀ a : Fin 4, win0_1.index t a * S1x32x4x4.size a ≤ (i a).val
      ∧ (i a).val < win0_1.index t a * S1x32x4x4.size a + S1x32x4x4.size a := by
  show i ∈ ((View.whole main_v0).slice (win0_1.rect t)).set ↔ _
  rw [View.set_slice_whole, Rect.mem_set_unit]
  exact Iff.rfl

/-- The blocks tile the pooled array: entry (b, ch, ·, ·) is in the block of the point of image `b` and half `ch / 32`. -/
theorem cover (i : S8x64x4x4.Idx) : ∃ t : Fin cfg0.N, (cfg0.win 1).flush t = true ∧ i ∈ ((cfg0.win 1).blk t).view.set := by
  have hi0 : (i 0).val < 8 := (i 0).isLt
  have hi1 : (i 1).val < 64 := (i 1).isLt
  have hi2 : (i 2).val < 4 := (i 2).isLt
  have hi3 : (i 3).val < 4 := (i 3).isLt
  obtain ⟨t, ht⟩ := idx_onto ⟨(i 0).val, hi0⟩ ⟨(i 1).val / 32, by omega⟩
  have q0 : win0_1.index t (0 : Fin 4) = (i 0).val := congrFun ht 0
  have q1 : win0_1.index t (1 : Fin 4) = (i 1).val / 32 := congrFun ht 1
  have q2 : win0_1.index t (2 : Fin 4) = 0 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 32 ≤ (i 1).val ∧ (i 1).val < win0_1.index t (1 : Fin 4) * 32 + 32; omega
  | ⟨2, _⟩ => show win0_1.index t (2 : Fin 4) * 4 ≤ (i 2).val ∧ (i 2).val < win0_1.index t (2 : Fin 4) * 4 + 4; omega
  | ⟨3, _⟩ => show win0_1.index t (3 : Fin 4) * 4 ≤ (i 3).val ∧ (i 3).val < win0_1.index t (3 : Fin 4) * 4 + 4; omega

/-- The pooled array after the region: the patch means of the image the region found. -/
theorem final (c : Dev nD) : (dat0 V c).arrAt 1 cfg0.N = pool (V c main_arg0) :=
  (dat0 V c).arrAt_eq_of_cover 1 (pool (V c main_arg0)) (fun t _ => flushed_eq V c t) cover

end Cert.KernelIdeal.PoolRegion

end
-- ==== Proof.GateBody.lean ====
/-
  What the gating body leaves in its output block: from a [1, 32, 256, 256] block of the image and the
  [1, 32, 4, 4] block of gates of the same channels it stores, band by band of 64 rows, every pixel times the gate
  of its channel, of the band (the patch row) and of its column's patch. The four stores tile the block, so the block
  is one function of the two inputs.
-/
import proofs.«151694_j55224689492533_2_alg».proof.Proof.Band
import proofs.«151694_j55224689492533_2_alg».proof.Proof.LibPatchBand

noncomputable section

namespace Cert.KernelIdeal.GateBody

open Cert.KernelIdeal Cert.KernelIdeal.Gen Idealize.ShloMosaic Idealize.ShloMosaic.ValueIdx Cert.Spec Cert.PatchBand
open Cert.KernelIdeal.Band

/-- The gated block: entry (c, h, w) of the image block times the gate block's entry (c, patch of h, patch of w). -/
def gateBlock (x0 : Vec Ideal S1x32x256x256 .f32) (x1 : Vec Ideal S1x32x4x4 .f32) : S1x32x256x256.Idx → EReal :=
  fun y => x0 y * x1 (ix4 (n0 := 1) (n1 := 32) (y 0) (y 1) (patch (y 2)) (patch (y 3)))

theorem gateBlock_ix4 (x0 : Vec Ideal S1x32x256x256 .f32) (x1 : Vec Ideal S1x32x4x4 .f32) (a : Fin 1) (c : Fin 32) (h w : Fin 256) :
    gateBlock x0 x1 (ix4 a c h w) = x0 (ix4 a c h w) * x1 (ix4 a c (patch h) (patch w)) := rfl

/-- The gate block with its unit axis dropped reads the same entry. -/
theorem gates_cast (x1 : Vec Ideal S1x32x4x4 .f32) (h : S1x32x4x4.ShapeCasts S32x4x4) (a : Fin 1) (c : Fin 32) (k p : Fin 4) :
    shapeCast S32x4x4 x1 h (ix3 c k p) = x1 (ix4 a c k p) := by
  have ha : a.val = 0 := by have := a.isLt; omega
  refine shapeCast_apply x1 h _ (ix4 a c k p) ?_
  rewrite [Shape.rowMajor_val_four, Shape.rowMajor_val_three]
  show ((a.val * 32 + c.val) * 4 + k.val) * 4 + p.val = (c.val * 4 + k.val) * 4 + p.val
  omega

/-- The first band's payload. -/
theorem pay4_apply (x1 : Vec Ideal S1x32x4x4 .f32) (band : Vec Ideal S1x32x64x256 .f32) (a : Fin 1) (c : Fin 32) (r : Fin 64) (w : Fin 256) :
    k1_pay4 (F := Ideal) x1 band (ix4 a c r w) = band (ix4 a c r w) * x1 (ix4 a c 0 (patch w)) := by
  unfold k1_pay4 k1_pay3
  dsimp only
  refine (band_gate band _ _ _ _ _ _ _ _ _ _ _ a c r w).trans ?_
  refine congrArg (band (ix4 a c r w) * ·) ?_
  refine (row_slice _ 0 _ rfl _ c (patch w)).trans ?_
  exact gates_cast x1 _ a c 0 (patch w)

/-- The second band's payload. -/
theorem pay5_apply (x1 : Vec Ideal S1x32x4x4 .f32) (band : Vec Ideal S1x32x64x256 .f32) (a : Fin 1) (c : Fin 32) (r : Fin 64) (w : Fin 256) :
    k1_pay5 (F := Ideal) x1 band (ix4 a c r w) = band (ix4 a c r w) * x1 (ix4 a c 1 (patch w)) := by
  unfold k1_pay5 k1_pay3
  dsimp only
  refine (band_gate band _ _ _ _ _ _ _ _ _ _ _ a c r w).trans ?_
  refine congrArg (band (ix4 a c r w) * ·) ?_
  refine (row_slice _ 1 _ rfl _ c (patch w)).trans ?_
  exact gates_cast x1 _ a c 1 (patch w)

/-- The third band's payload. -/
theorem pay1_apply (x1 : Vec Ideal S1x32x4x4 .f32) (band : Vec Ideal S1x32x64x256 .f32) (a : Fin 1) (c : Fin 32) (r : Fin 64) (w : Fin 256) :
    k1_pay1 (F := Ideal) (k1_pay3 x1) band (ix4 a c r w) = band (ix4 a c r w) * x1 (ix4 a c 2 (patch w)) := by
  unfold k1_pay1 k1_pay3
  dsimp only
  refine (band_gate band _ _ _ _ _ _ _ _ _ _ _ a c r w).trans ?_
  refine congrArg (band (ix4 a c r w) * ·) ?_
  refine (row_slice _ 2 _ rfl _ c (patch w)).trans ?_
  exact gates_cast x1 _ a c 2 (patch w)

/-- The fourth band's payload. -/
theorem pay2_apply (x1 : Vec Ideal S1x32x4x4 .f32) (band : Vec Ideal S1x32x64x256 .f32) (a : Fin 1) (c : Fin 32) (r : Fin 64) (w : Fin 256) :
    k1_pay2 (F := Ideal) (k1_pay3 x1) band (ix4 a c r w) = band (ix4 a c r w) * x1 (ix4 a c 3 (patch w)) := by
  unfold k1_pay2 k1_pay3
  dsimp only
  refine (band_gate band _ _ _ _ _ _ _ _ _ _ _ a c r w).trans ?_
  refine congrArg (band (ix4 a c r w) * ·) ?_
  refine (row_slice _ 3 _ rfl _ c (patch w)).trans ?_
  exact gates_cast x1 _ a c 3 (patch w)

/-- A band's store agrees with the gated block on the band's rectangle, when its payload is the band times the gates of
    patch row `k`. -/
theorem piece_ok (x0 : Vec Ideal S1x32x256x256 .f32) (x1 : Vec Ideal S1x32x4x4 .f32) (k : Fin 4) (off : Fin 4 → Nat)
    (hoff : off = ![0, 0, k.val * 64, 0]) (inb : ∀ a, off a + S1x32x64x256.size a ≤ S1x32x256x256.size a)
    (pay : FVec Ideal S1x32x64x256 .f32)
    (hpay : ∀ (a : Fin 1) (c : Fin 32) (r : Fin 64) (w : Fin 256),
      pay (ix4 a c r w) = View.ld x0 (Rect.unit (s := S1x32x256x256) off S1x32x64x256.size inb) (ix4 a c r w) * x1 (ix4 a c k (patch w)))
    (x : S1x32x64x256.Idx) :
    pay x = gateBlock x0 x1 ((Rect.unit (s := S1x32x256x256) off S1x32x64x256.size inb).emb x) := by
  obtain ⟨a, c, r, w, rfl⟩ : ∃ (a : Fin 1) (c : Fin 32) (r : Fin 64) (w : Fin 256), x = ix4 a c r w :=
    ⟨x 0, x 1, x 2, x 3, eq_ix4 x⟩
  rw [hpay, ld_band x0 k off hoff inb, emb_band k off hoff inb, gateBlock_ix4]
  have hp : patch (pix k r) = k := Fin.ext (by rw [patch_val, pix_val]; have := r.isLt; omega)
  rw [hp]

/-- The body's four stores leave the gated block. -/
theorem out1_2_eq (x0 : Vec Ideal S1x32x256x256 .f32) (x1 : Vec Ideal S1x32x4x4 .f32) :
    out1_2 (F := Ideal) x0 x1 = gateBlock x0 x1 := by
  funext y
  unfold out1_2
  simp only [View.ld_unit_zero (S := S1x32x4x4) zero4]
  refine View.canon_apply_of_pieces (Val := Elt Ideal) (e := .f32) (gateBlock x0 x1) _ ?_ y (cover1_2 _ _ _ _ y)
  intro p hp
  simp only [List.mem_cons, List.not_mem_nil, or_false] at hp
  rcases hp with rfl | rfl | rfl | rfl
  · exact piece_ok x0 x1 3 _ rfl _ _ (fun a c r w => pay2_apply x1 _ a c r w)
  · exact piece_ok x0 x1 2 _ rfl _ _ (fun a c r w => pay1_apply x1 _ a c r w)
  · exact piece_ok x0 x1 1 _ rfl _ _ (fun a c r w => pay5_apply x1 _ a c r w)
  · exact piece_ok x0 x1 0 _ rfl _ _ (fun a c r w => pay4_apply x1 _ a c r w)

end Cert.KernelIdeal.GateBody

end
-- ==== Proof.GateRegion.lean ====
/-
  The gating region's output array after its 16 grid points, whatever the buffers hold when the region is entered:
  grid point (b, half) reads channels half · 32 … half · 32 + 31 of image b and of the gates and writes the same
  channels of the result, so the blocks tile the result and every pixel ends multiplied by its patch's gate.
-/
import proofs.«151694_j55224689492533_2_alg».proof.Proof.GateBody

noncomputable section

namespace Cert.KernelIdeal.GateRegion

open Cert.KernelIdeal Cert.KernelIdeal.Gen Idealize.ShloMosaic Idealize.ShloMosaic.TcCoe Idealize.ShloMosaic.ValueIdx
open Idealize.SL.Sem Cert.Spec Cert.KernelIdeal.GateBody
open Idealize.ShloMosaic.Pipeline (Dat Cfg Window)

variable (V : (c : Dev nD) → (b : Ref sig .tc) → Buf (Elt Ideal) ((c : Thread nD τ).loc b))

/-- The three windows' block indices at every grid point: one image and channel half for all three, the whole picture
    and the whole patch grid. -/
theorem idx_facts : ∀ t : Fin cfg1.N,
    win1_0.index t (0 : Fin 4) = win1_2.index t (0 : Fin 4) ∧ win1_0.index t (1 : Fin 4) = win1_2.index t (1 : Fin 4)
    ∧ win1_0.index t (2 : Fin 4) = 0 ∧ win1_0.index t (3 : Fin 4) = 0
    ∧ win1_1.index t (0 : Fin 4) = win1_2.index t (0 : Fin 4) ∧ win1_1.index t (1 : Fin 4) = win1_2.index t (1 : Fin 4)
    ∧ win1_1.index t (2 : Fin 4) = 0 ∧ win1_1.index t (3 : Fin 4) = 0
    ∧ win1_2.index t (2 : Fin 4) = 0 ∧ win1_2.index t (3 : Fin 4) = 0
    ∧ win1_2.index t (0 : Fin 4) ≤ 7 ∧ win1_2.index t (1 : Fin 4) ≤ 1 :=
  (by decide +kernel : ∀ t : Fin grid1.N, _)

/-- Every (image, channel half) is some grid point's. -/
theorem idx_onto : ∀ (q0 : Fin 8) (q1 : Fin 2), ∃ t : Fin cfg1.N, win1_2.index t = ![q0.val, q1.val, 0, 0] :=
  (by decide +kernel : ∀ (q0 : Fin 8) (q1 : Fin 2), ∃ t : Fin grid1.N, win1_2.index t = ![q0.val, q1.val, 0, 0])

/-- The image block of a grid point read at (channel, row, column). -/
theorem iblk_image (c : Dev nD) (t : Fin cfg1.N) (a : Fin 1) (cc : Fin 32) (h w : Fin 256) (B : Fin 8) (C : Fin 64)
    (hB : B.val = win1_0.index t (0 : Fin 4)) (hC : C.val = win1_0.index t (1 : Fin 4) * 32 + cc.val)
    (h2 : win1_0.index t (2 : Fin 4) = 0) (h3 : win1_0.index t (3 : Fin 4) = 0) :
    iblk1 V c 0 t (ix4 a cc h w) = V c main_arg0 (ix4 B C h w) := by
  have ha : a.val = 0 := by have := a.isLt; omega
  show V c main_arg0 (((cfg1.win 0).blk t).view.emb (ix4 a cc h w)) = V c main_arg0 (ix4 B C h w)
  refine congrArg (V c main_arg0) (funext fun b => Fin.ext ?_)
  match b with
  | ⟨0, _⟩ => show win1_0.index t (0 : Fin 4) * 1 + 1 * a.val = B.val; omega
  | ⟨1, _⟩ => show win1_0.index t (1 : Fin 4) * 32 + 1 * cc.val = C.val; omega
  | ⟨2, _⟩ => show win1_0.index t (2 : Fin 4) * 256 + 1 * h.val = h.val; omega
  | ⟨3, _⟩ => show win1_0.index t (3 : Fin 4) * 256 + 1 * w.val = w.val; omega

/-- The gate block of a grid point read at (channel, patch row, patch column). -/
theorem iblk_gates (c : Dev nD) (t : Fin cfg1.N) (a : Fin 1) (cc : Fin 32) (k p : Fin 4) (B : Fin 8) (C : Fin 64)
    (hB : B.val = win1_1.index t (0 : Fin 4)) (hC : C.val = win1_1.index t (1 : Fin 4) * 32 + cc.val)
    (h2 : win1_1.index t (2 : Fin 4) = 0) (h3 : win1_1.index t (3 : Fin 4) = 0) :
    iblk1 V c 1 t (ix4 a cc k p) = V c main_v23 (ix4 B C k p) := by
  have ha : a.val = 0 := by have := a.isLt; omega
  show V c main_v23 (((cfg1.win 1).blk t).view.emb (ix4 a cc k p)) = V c main_v23 (ix4 B C k p)
  refine congrArg (V c main_v23) (funext fun b => Fin.ext ?_)
  match b with
  | ⟨0, _⟩ => show win1_1.index t (0 : Fin 4) * 1 + 1 * a.val = B.val; omega
  | ⟨1, _⟩ => show win1_1.index t (1 : Fin 4) * 32 + 1 * cc.val = C.val; omega
  | ⟨2, _⟩ => show win1_1.index t (2 : Fin 4) * 4 + 1 * k.val = k.val; omega
  | ⟨3, _⟩ => show win1_1.index t (3 : Fin 4) * 4 + 1 * p.val = p.val; omega

/-- What grid point `t` writes back is its block of the gated image, of the image and the gates as the region finds
    them. -/
theorem flushed_eq (c : Dev nD) (t : Fin cfg1.N) :
    (dat1 V c).flushed 2 t = ((cfg1.win 2).blk t).view.read (Elt Ideal) (gate (V c main_arg0) (V c main_v23)) := by
  show (cfg1.win 2).cut (grid1.coords t) ((dat1 V c).after 2 t) = _
  rw [after1_2, out1_2_eq]
  obtain ⟨e0, e1, e2, e3, e4, e5, e6, e7, e8, e9, e10, e11⟩ := idx_facts t
  funext y
  have y0 : (y 0).val < 1 := (y 0).isLt
  have y1 : (y 1).val < 32 := (y 1).isLt
  have y2 : (y 2).val < 256 := (y 2).isLt
  have y3 : (y 3).val < 256 := (y 3).isLt
  have hy : y = ix4 (⟨(y 0).val, y0⟩ : Fin 1) (⟨(y 1).val, y1⟩ : Fin 32) (⟨(y 2).val, y2⟩ : Fin 256) (⟨(y 3).val, y3⟩ : Fin 256) :=
    funext fun a => match a with
      | ⟨0, _⟩ => rfl
      | ⟨1, _⟩ => rfl
      | ⟨2, _⟩ => rfl
      | ⟨3, _⟩ => rfl
  have hemb : ((cfg1.win 2).blk t).view.emb y
      = ix4 (⟨win1_2.index t (0 : Fin 4), by omega⟩ : Fin 8) (⟨win1_2.index t (1 : Fin 4) * 32 + (y 1).val, by omega⟩ : Fin 64)
          (⟨(y 2).val, y2⟩ : Fin 256) (⟨(y 3).val, y3⟩ : Fin 256) :=
    funext fun a => Fin.ext (match a with
      | ⟨0, _⟩ => by show win1_2.index t (0 : Fin 4) * 1 + 1 * (y 0).val = win1_2.index t (0 : Fin 4); omega
      | ⟨1, _⟩ => by show win1_2.index t (1 : Fin 4) * 32 + 1 * (y 1).val = win1_2.index t (1 : Fin 4) * 32 + (y 1).val; omega
      | ⟨2, _⟩ => by show win1_2.index t (2 : Fin 4) * 256 + 1 * (y 2).val = (y 2).val; omega
      | ⟨3, _⟩ => by show win1_2.index t (3 : Fin 4) * 256 + 1 * (y 3).val = (y 3).val; omega)
  show gateBlock (iblk1 V c 0 t) (iblk1 V c 1 t) y = gate (V c main_arg0) (V c main_v23) (((cfg1.win 2).blk t).view.emb y)
  refine (congrArg (gateBlock (iblk1 V c 0 t) (iblk1 V c 1 t)) hy).trans ?_
  refine (gateBlock_ix4 _ _ _ _ _ _).trans ?_
  refine Eq.trans ?_ (congrArg (gate (V c main_arg0) (V c main_v23)) hemb).symm
  refine Eq.trans ?_ (gate_ix4 _ _ _ _ _ _).symm
  refine congrArg₂ (· * ·) ?_ ?_
  · exact iblk_image V c t _ _ _ _ _ _ (by show win1_2.index t (0 : Fin 4) = win1_0.index t (0 : Fin 4); omega)
      (by show win1_2.index t (1 : Fin 4) * 32 + (y 1).val = win1_0.index t (1 : Fin 4) * 32 + (y 1).val; omega) e2 e3
  · exact iblk_gates V c t _ _ _ _ _ _ (by show win1_2.index t (0 : Fin 4) = win1_1.index t (0 : Fin 4); omega)
      (by show win1_2.index t (1 : Fin 4) * 32 + (y 1).val = win1_1.index t (1 : Fin 4) * 32 + (y 1).val; omega) e6 e7

/-- An index of the result is in grid point `t`'s block iff each coordinate is in the block's range. -/
theorem mem_blk (t : Fin cfg1.N) (i : S8x64x256x256.Idx) :
    i ∈ ((cfg1.win 2).blk t).view.set ↔ ∀ a : Fin 4, win1_2.index t a * S1x32x256x256.size a ≤ (i a).val
      ∧ (i a).val < win1_2.index t a * S1x32x256x256.size a + S1x32x256x256.size a := by
  show i ∈ ((View.whole main_v24).slice (win1_2.rect t)).set ↔ _
  rw [View.set_slice_whole, Rect.mem_set_unit]
  exact Iff.rfl

/-- The blocks tile the result: pixel (b, ch, ·, ·) is in the block of the point of image `b` and half `ch / 32`. -/
theorem cover (i : S8x64x256x256.Idx) : ∃ t : Fin cfg1.N, (cfg1.win 2).flush t = true ∧ i ∈ ((cfg1.win 2).blk t).view.set := by
  have hi0 : (i 0).val < 8 := (i 0).isLt
  have hi1 : (i 1).val < 64 := (i 1).isLt
  have hi2 : (i 2).val < 256 := (i 2).isLt
  have hi3 : (i 3).val < 256 := (i 3).isLt
  obtain ⟨t, ht⟩ := idx_onto ⟨(i 0).val, hi0⟩ ⟨(i 1).val / 32, by omega⟩
  have q0 : win1_2.index t (0 : Fin 4) = (i 0).val := congrFun ht 0
  have q1 : win1_2.index t (1 : Fin 4) = (i 1).val / 32 := congrFun ht 1
  have q2 : win1_2.index t (2 : Fin 4) = 0 := congrFun ht 2
  have q3 : win1_2.index t (3 : Fin 4) = 0 := congrFun ht 3
  refine ⟨t, flush1_2 t, ?_⟩
  rw [mem_blk]
  intro a
  match a with
  | ⟨0, _⟩ => show win1_2.index t (0 : Fin 4) * 1 ≤ (i 0).val ∧ (i 0).val < win1_2.index t (0 : Fin 4) * 1 + 1; omega
  | ⟨1, _⟩ => show win1_2.index t (1 : Fin 4) * 32 ≤ (i 1).val ∧ (i 1).val < win1_2.index t (1 : Fin 4) * 32 + 32; omega
  | ⟨2, _⟩ => show win1_2.index t (2 : Fin 4) * 256 ≤ (i 2).val ∧ (i 2).val < win1_2.index t (2 : Fin 4) * 256 + 256; omega
  | ⟨3, _⟩ => show win1_2.index t (3 : Fin 4) * 256 ≤ (i 3).val ∧ (i 3).val < win1_2.index t (3 : Fin 4) * 256 + 256; omega

/-- The result array after the region: the image the region found, gated by the gates it found. -/
theorem final (c : Dev nD) : (dat1 V c).arrAt 2 cfg1.N = gate (V c main_arg0) (V c main_v23) :=
  (dat1 V c).arrAt_eq_of_cover 2 (gate (V c main_arg0) (V c main_v23)) (fun t _ => flushed_eq V c t) cover

end Cert.KernelIdeal.GateRegion

end
-- ==== Proof.Mlp.lean ====
/-
  The perceptron between the two regions, as ONE function of the pooled means and the four weight arrays: the means
  reordered to rows of 1024, a linear layer to 256, x · tanh(softplus x), a linear layer back to 1024, the logistic
  function 1 / (1 + exp(−x)), and the reordering back to one gate per (image, channel, patch). Both programs spell it
  with the same host operations, so it is named here once and never opened.
-/
import proofs.«151694_j55224689492533_2_alg».proof.Proof.Gen.KernelIdeal
import Idealize.ShloMosaic.PureOps.Ideal
import proofs.«151694_j55224689492533_2_alg».proof.Proof.Spec

noncomputable section

namespace Cert.KernelIdeal.Mlp

open Cert.KernelIdeal Cert.KernelIdeal.Gen Idealize.ShloMosaic

/-- The first linear layer on the reordered means. -/
def lin1 (p : FVec Ideal S8x64x4x4 .f32) (w1 : FVec Ideal S256x1024 .f32) (b1 : FVec Ideal S256 .f32) : FVec Ideal S8x256 .f32 :=
  addf
    (Host.dotGeneral dot_S8x1024_S1024x256_S8x256_1_0_0_1_n_n none
      (shapeCast _ (transpose S8x4x4x64 [0, 2, 3, 1] p transposes_S8x64x4x4_S8x4x4x64_0_2_3_1) shapeCasts_S8x4x4x64_S8x1024)
      (transpose S1024x256 [1, 0] w1 transposes_S256x1024_S1024x256_1_0))
    (broadcastInDim S8x256 ![0, 1] bcast_S1x256_S8x256_0_1 (broadcastInDim S1x256 ![1] bcast_S256_S1x256_1 b1))

/-- The softplus as the host computes it: max(x, 0) + log1p(exp(−|x − 0|)), with its guard for an unordered x − 0. -/
def softplus (x : FVec Ideal S8x256 .f32) : FVec Ideal S8x256 .f32 :=
  select
    (cmpf .une (subf x (broadcastInDim S8x256 ![] bcast_S_S8x256 (constant (F := Ideal) S_ .f32 0x00000000#32)))
      (subf x (broadcastInDim S8x256 ![] bcast_S_S8x256 (constant (F := Ideal) S_ .f32 0x00000000#32))))
    (addf x (broadcastInDim S8x256 ![] bcast_S_S8x256 (constant (F := Ideal) S_ .f32 0x00000000#32)))
    (addf (maximumf x (broadcastInDim S8x256 ![] bcast_S_S8x256 (constant (F := Ideal) S_ .f32 0x00000000#32)))
      (Host.log1p (Host.exp (Host.negf (Host.absf
        (subf x (broadcastInDim S8x256 ![] bcast_S_S8x256 (constant (F := Ideal) S_ .f32 0x00000000#32))))))))

/-- From the first layer's output and its softplus to the gates. -/
def gatesOf (x sp : FVec Ideal S8x256 .f32) (w2 : FVec Ideal S1024x256 .f32) (b2 : FVec Ideal S1024 .f32) : FVec Ideal S8x64x4x4 .f32 :=
  transpose S8x64x4x4 [0, 3, 1, 2]
    (shapeCast _
      (Host.divf (broadcastInDim S8x1024 ![] bcast_S_S8x1024 (constant (F := Ideal) S_ .f32 0x3F800000#32))
        (addf (broadcastInDim S8x1024 ![] bcast_S_S8x1024 (constant (F := Ideal) S_ .f32 0x3F800000#32))
          (Host.exp (Host.negf
            (addf
              (Host.dotGeneral dot_S8x256_S256x1024_S8x1024_1_0_0_1_n_n none (mulf x (Host.tanh sp))
                (transpose S256x1024 [1, 0] w2 transposes_S1024x256_S256x1024_1_0))
              (broadcastInDim S8x1024 ![0, 1] bcast_S1x1024_S8x1024_0_1 (broadcastInDim S1x1024 ![1] bcast_S1024_S1x1024_1 b2)))))))
      shapeCasts_S8x1024_S8x4x4x64)
    transposes_S8x4x4x64_S8x64x4x4_0_3_1_2

/-- The gates from the pooled means. -/
def mlp (p : FVec Ideal S8x64x4x4 .f32) (w1 : FVec Ideal S256x1024 .f32) (b1 : FVec Ideal S256 .f32)
    (w2 : FVec Ideal S1024x256 .f32) (b2 : FVec Ideal S1024 .f32) : FVec Ideal S8x64x4x4 .f32 :=
  gatesOf (lin1 p w1 b1) (softplus (lin1 p w1 b1)) w2 b2

/-- The whole function: every pixel times the gate the perceptron makes of the patch means. -/
def result (t : FVec Ideal S8x64x256x256 .f32) (w1 : FVec Ideal S256x1024 .f32) (b1 : FVec Ideal S256 .f32)
    (w2 : FVec Ideal S1024x256 .f32) (b2 : FVec Ideal S1024 .f32) : FVec Ideal S8x64x256x256 .f32 :=
  Cert.Spec.gate t (mlp (Cert.Spec.pool t) w1 b1 w2 b2)

end Cert.KernelIdeal.Mlp

end
-- ==== Proof.KernelValue.lean ====
/-
  The kernel program's result as a function of its arguments. The run's boundary contents, read backwards: the
  result array is what the gating region leaves (the image it finds, gated by the gates it finds); the image it
  finds is the argument (nothing before writes it); the gates it finds are what the host operations between the
  regions make of the pooled array (the perceptron, named once and not opened); and the pooled array is what the
  pooling region leaves (the patch means of the argument).
-/
import proofs.«151694_j55224689492533_2_alg».proof.Proof.KernelRun
import proofs.«151694_j55224689492533_2_alg».proof.Proof.PoolRegion
import proofs.«151694_j55224689492533_2_alg».proof.Proof.GateRegion
import proofs.«151694_j55224689492533_2_alg».proof.Proof.Mlp
import Idealize.ShloMosaic.Lib.StableHlo.Run

set_option maxRecDepth 16384

noncomputable section

namespace Cert.KernelIdeal.Result

open Cert.KernelIdeal Cert.KernelIdeal.Gen Cert.KernelIdeal.Mlp Cert.Spec
open Idealize.ShloMosaic Idealize.ShloMosaic.TcCoe Idealize.ShloMosaic.StableHlo
open Idealize.SL.Sem

variable (m : (ℓ : Loc nD τ sig) → Buf (Elt Ideal) ℓ) (ρ : Dev nD → PrngReg)

/-- The host operations between the regions make the gates of the pooled array and the weights, whatever the buffers
    hold after the first region. -/
theorem host_gates (W : Valuation τ sig (Elt Ideal)) :
    StableHlo.after hostOps1_2 (StableHlo.after hostOps1_1 (StableHlo.after hostOps1 W)) (Proc.devRef .tc main_v23)
      = mlp (W (Proc.devRef .tc main_v0)) (W (Proc.devRef .tc main_arg1)) (W (Proc.devRef .tc main_arg2))
          (W (Proc.devRef .tc main_arg3)) (W (Proc.devRef .tc main_arg4)) := by
  dsimp only [hostOps1, hostOps1_1, hostOps1_2]
  after_results_simp
  rfl

/-- After the first region the pooled array holds the patch means of the image argument. -/
theorem W1_pooled (c : Dev nD) : W1 m ρ c (Proc.devRef .tc main_v0) = pool (m ((c : Thread nD τ).loc main_arg0)) :=
  (W1_arr m ρ c 1).trans (PoolRegion.final (V0 m ρ) c)

theorem W1_arg1 (c : Dev nD) : W1 m ρ c (Proc.devRef .tc main_arg1) = m ((c : Thread nD τ).loc main_arg1) :=
  W1_of_ne m ρ c main_arg1 (by decide)
theorem W1_arg2 (c : Dev nD) : W1 m ρ c (Proc.devRef .tc main_arg2) = m ((c : Thread nD τ).loc main_arg2) :=
  W1_of_ne m ρ c main_arg2 (by decide)
theorem W1_arg3 (c : Dev nD) : W1 m ρ c (Proc.devRef .tc main_arg3) = m ((c : Thread nD τ).loc main_arg3) :=
  W1_of_ne m ρ c main_arg3 (by decide)
theorem W1_arg4 (c : Dev nD) : W1 m ρ c (Proc.devRef .tc main_arg4) = m ((c : Thread nD τ).loc main_arg4) :=
  W1_of_ne m ρ c main_arg4 (by decide)

/-- The second region finds the image argument as launched. -/
theorem W4_image (c : Dev nD) : W4 m ρ c (Proc.devRef .tc main_arg0) = m ((c : Thread nD τ).loc main_arg0) :=
  (((W5_arr m ρ c 0).trans (((dat1 (V4 m ρ) c).arrAt_in 0 rfl _).trans (A_eq1 (V4 m ρ) c 0))).symm).trans (W5_main_arg0 m ρ c)

/-- The second region finds the gates of the patch means of the image argument. -/
theorem W4_gates (c : Dev nD) : W4 m ρ c (Proc.devRef .tc main_v23)
    = mlp (pool (m ((c : Thread nD τ).loc main_arg0))) (m ((c : Thread nD τ).loc main_arg1)) (m ((c : Thread nD τ).loc main_arg2))
        (m ((c : Thread nD τ).loc main_arg3)) (m ((c : Thread nD τ).loc main_arg4)) := by
  refine (host_gates (W1 m ρ c)).trans ?_
  rw [W1_pooled, W1_arg1, W1_arg2, W1_arg3, W1_arg4]

/-- The result buffer's contents at the run's last boundary: the function of the arguments. -/
theorem result_eq (c : Dev nD) : W5 m ρ c (Proc.devRef .tc main_v24)
    = result (m ((c : Thread nD τ).loc main_arg0)) (m ((c : Thread nD τ).loc main_arg1)) (m ((c : Thread nD τ).loc main_arg2))
        (m ((c : Thread nD τ).loc main_arg3)) (m ((c : Thread nD τ).loc main_arg4)) := by
  refine (W5_arr m ρ c 2).trans ?_
  refine (GateRegion.final (V4 m ρ) c).trans ?_
  show gate (W4 m ρ c (Proc.devRef .tc main_arg0)) (W4 m ρ c (Proc.devRef .tc main_v23)) = _
  rw [W4_image, W4_gates]
  rfl

/-- Every weakly fair execution of the kernel program terminates with its result at that function of the arguments and
    the arguments unchanged. -/
theorem run : θ_run defs (onTc (τ := τ) (main (F := Ideal))) ⟨m, fun _ => 0, ρ⟩ (fun r => ∀ c : Dev nD,
      r.2.mem ((c.tc : Thread nD τ).loc main_v24)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ c), (h c).2⟩) (RunValue.run m ρ)

end Cert.KernelIdeal.Result

end
-- ==== Proof.LibPatchGrid.lean ====
/-
  The image tensor [8, 64, 256, 256] viewed as [8, 64, 4, 64, 4, 64] (patch row, row in patch, patch column, column
  in patch), read at an index, both ways; and the sum over the two in-patch axes of such a view, at
  (image, channel, patch row, patch column), as the double sum over the patch's columns and rows.
-/
import Idealize.ShloMosaic.Lib.ValueIdx
import Idealize.ShloMosaic.Lib.ValueIdxRank6
import Idealize.ShloMosaic.Lib.Pipeline.Value
import Idealize.ShloMosaic.PureOps.Ideal.Laws
import proofs.«151694_j55224689492533_2_alg».proof.Proof.Spec

noncomputable section

open scoped BigOperators

namespace Cert.PatchGrid

open Idealize.ShloMosaic Idealize.ShloMosaic.ValueIdx Cert.Spec

/-- The image tensor with each picture axis split into patch and position in the patch. -/
abbrev S6 : Shape := ⟨6, ![8, 64, 4, 64, 4, 64]⟩

variable {α : Type}

/-- The split view at (b, c, ph, r, pw, q) is the image at row `ph · 64 + r`, column `pw · 64 + q`. -/
theorem split_apply (x : ST.Idx → α) (h : ST.ShapeCasts S6) (b : Fin 8) (c : Fin 64) (ph : Fin 4) (r : Fin 64) (pw : Fin 4) (q : Fin 64) :
    shapeCast S6 x h (ix6 b c ph r pw q) = x (ix4 b c (pix ph r) (pix pw q)) := by
  refine shapeCast_apply x h _ (ix4 b c (pix ph r) (pix pw q)) ?_
  rewrite [Shape.rowMajor_val_four, Shape.rowMajor_val_six]
  show ((b.val * 64 + c.val) * 256 + (ph.val * 64 + r.val)) * 256 + (pw.val * 64 + q.val)
    = ((((b.val * 64 + c.val) * 4 + ph.val) * 64 + r.val) * 4 + pw.val) * 64 + q.val
  omega

/-- A split view merged back, at (b, c, h, w), is the view at h's and w's patch and position. -/
theorem merge_apply (y : S6.Idx → α) (h : S6.ShapeCasts ST) (b : Fin 8) (c : Fin 64) (hh w : Fin 256) :
    shapeCast ST y h (ix4 b c hh w)
      = y (ix6 b c (patch hh) ⟨hh.val % 64, Nat.mod_lt _ (by decide)⟩ (patch w) ⟨w.val % 64, Nat.mod_lt _ (by decide)⟩) := by
  have h1 := hh.isLt
  have h2 := w.isLt
  refine shapeCast_apply y h _ _ ?_
  rewrite [Shape.rowMajor_val_four, Shape.rowMajor_val_six]
  show ((((b.val * 64 + c.val) * 4 + hh.val / 64) * 64 + hh.val % 64) * 4 + w.val / 64) * 64 + w.val % 64
    = ((b.val * 64 + c.val) * 256 + hh.val) * 256 + w.val
  omega

/-- The indices of the split view that keep (b, c, ph, pw) when the two in-patch axes are dropped are the patch's
    64 × 64 positions: summed over them, a function is its double sum over the patch's columns and rows. -/
theorem sum_patch (y : S6.Idx → EReal) (h : S6.ReducesTo [3, 5] SP) (b : Fin 8) (c : Fin 64) (ph pw : Fin 4) :
    ∑ i ∈ Finset.univ.filter (fun i => h.drop i = ix4 b c ph pw), y i = ∑ q : Fin 64, ∑ r : Fin 64, y (ix6 b c ph r pw q) := by
  have hd : ∀ i : S6.Idx, h.drop i = ix4 b c ph pw →
      (i 0).val = b.val ∧ (i 1).val = c.val ∧ (i 2).val = ph.val ∧ (i 4).val = pw.val := fun i hi =>
    ⟨(h.drop_apply_val_of_eq i 0 0).symm.trans (congrArg (fun j : SP.Idx => (j 0).val) hi),
     (h.drop_apply_val_of_eq i 1 1).symm.trans (congrArg (fun j : SP.Idx => (j 1).val) hi),
     (h.drop_apply_val_of_eq i 2 2).symm.trans (congrArg (fun j : SP.Idx => (j 2).val) hi),
     (h.drop_apply_val_of_eq i 3 4).symm.trans (congrArg (fun j : SP.Idx => (j 3).val) hi)⟩
  have hback : ∀ i : S6.Idx, h.drop i = ix4 b c ph pw → ix6 b c ph (i 3) pw (i 5) = i := fun i hi => by
    obtain ⟨e0, e1, e2, e4⟩ := hd i hi
    refine funext fun a => Fin.ext ?_
    match a with
    | ⟨0, _⟩ => exact e0.symm
    | ⟨1, _⟩ => exact e1.symm
    | ⟨2, _⟩ => exact e2.symm
    | ⟨3, _⟩ => rfl
    | ⟨4, _⟩ => exact e4.symm
    | ⟨5, _⟩ => rfl
  rw [← Fintype.sum_prod_type (f := fun p : Fin 64 × Fin 64 => y (ix6 b c ph p.2 pw p.1))]
  refine Finset.sum_nbij' (fun i => ((i 5 : Fin 64), (i 3 : Fin 64))) (fun p => ix6 b c ph p.2 pw p.1) ?_ ?_ ?_ ?_ ?_
  · intro i _; exact Finset.mem_univ _
  · intro p _
    refine Finset.mem_filter.2 ⟨Finset.mem_univ _, funext fun a => Fin.ext ?_⟩
    match a with
    | ⟨0, _⟩ => exact h.drop_apply_val_of_eq _ 0 0
    | ⟨1, _⟩ => exact h.drop_apply_val_of_eq _ 1 1
    | ⟨2, _⟩ => exact h.drop_apply_val_of_eq _ 2 2
    | ⟨3, _⟩ => exact h.drop_apply_val_of_eq _ 3 4
  · intro i hi; exact hback i (Finset.mem_filter.1 hi).2
  · intro p _; rfl
  · intro i hi; exact congrArg y (hback i (Finset.mem_filter.1 hi).2).symm

/-- The host's sum of the split view over the two in-patch axes, from an initial value that is zero, at
    (b, c, ph, pw): the double sum over the patch's columns and rows of the image. -/
theorem hostSum_patch (x : FVec Ideal ST .f32) (hc : ST.ShapeCasts S6) (h : S6.ReducesTo [3, 5] SP)
    (init : FVec Ideal (⟨0, ![]⟩ : Shape) .f32) (hu : 0 < (⟨0, ![]⟩ : Shape).numel) (hinit : ∀ j, init j = 0)
    (b : Fin 8) (c : Fin 64) (ph pw : Fin 4) :
    Host.reduceAdd (F := Ideal) (shapeCast S6 x hc) init h hu (ix4 b c ph pw)
      = ∑ q : Fin 64, ∑ r : Fin 64, x (ix4 b c (pix ph r) (pix pw q)) := by
  show init _ + ∑ i ∈ Finset.univ.filter (fun i => h.drop i = ix4 b c ph pw), shapeCast S6 x hc i = _
  rw [hinit, zero_add, sum_patch]
  exact Finset.sum_congr rfl fun q _ => Finset.sum_congr rfl fun r _ => split_apply x hc b c ph r pw q

end Cert.PatchGrid

end
-- ==== Proof.RefValue.lean ====
/-
  The reference program's result as the same function of its arguments. Its patch means — the image split into
  patches, summed over the two in-patch axes, divided by 4096 — are the sums times 2⁻¹² (a quotient by the real 4096
  is the product with 1/4096 on every extended real, and the order of the two sums is the kernel's by regrouping a
  finite sum). Its gates are the same perceptron of the means, by the same operations. Its product of the split image
  with the gates spread over each patch, merged back, is every pixel times its patch's gate.
-/
import proofs.«151694_j55224689492533_2_alg».proof.Proof.Gen.ReferenceIdeal.Read
import proofs.«151694_j55224689492533_2_alg».proof.Proof.Mlp
import proofs.«151694_j55224689492533_2_alg».proof.Proof.LibPatchGrid

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Spec Cert.PatchGrid

/-- The reference's means are the patch means. -/
theorem pooled_eq (x0 : FVec Ideal S8x64x256x256 .f32) : val_main_v3 (F := Ideal) x0 = pool x0 := by
  funext i
  obtain ⟨b, c, ph, pw, rfl⟩ : ∃ (b : Fin 8) (c : Fin 64) (ph pw : Fin 4), i = ix4 b c ph pw := ⟨i 0, i 1, i 2, i 3, eq_ix4 i⟩
  rw [val_main_v3_apply, val_main_v2_apply, val_main_cst_0_apply, pool_ix4]
  unfold poolAt
  rw [Ideal.hostDivf_def, Ideal.ofBits_def, ofBits_4096, Ideal.div_coe (by norm_num : (4096 : ℝ) ≠ 0), ofBits_inv4096]
  refine congrArg (· * ((1 / 4096 : ℝ) : EReal)) ?_
  unfold val_main_v1 val_main_v0
  exact hostSum_patch x0 _ _ _ _ (fun j => Ideal.ofBits_zero_f32) b c ph pw

/-- The reference's gates are the perceptron of its means: the same host operations. -/
theorem gates_eq (x0 : FVec Ideal S8x64x256x256 .f32) (x1 : FVec Ideal S256x1024 .f32) (x2 : FVec Ideal S256 .f32)
    (x3 : FVec Ideal S1024x256 .f32) (x4 : FVec Ideal S1024 .f32) :
    val_main_v26 (F := Ideal) x0 x1 x2 x3 x4 = Cert.KernelIdeal.Mlp.mlp (val_main_v3 (F := Ideal) x0) x1 x2 x3 x4 := rfl

/-- The reference's result is the function. -/
theorem result_eq (x0 : FVec Ideal S8x64x256x256 .f32) (x1 : FVec Ideal S256x1024 .f32) (x2 : FVec Ideal S256 .f32)
    (x3 : FVec Ideal S1024x256 .f32) (x4 : FVec Ideal S1024 .f32) :
    val_main_v30 (F := Ideal) x0 x1 x2 x3 x4 = Cert.KernelIdeal.Mlp.result x0 x1 x2 x3 x4 := by
  funext i
  obtain ⟨b, c, hh, w, rfl⟩ : ∃ (b : Fin 8) (c : Fin 64) (hh w : Fin 256), i = ix4 b c hh w := ⟨i 0, i 1, i 2, i 3, eq_ix4 i⟩
  have hh' := hh.isLt
  have hw' := w.isLt
  unfold val_main_v30
  refine (merge_apply _ _ b c hh w).trans ?_
  rw [val_main_v29_apply, val_main_v28_apply, val_main_v27_apply]
  unfold val_main_v0
  rw [split_apply x0 _ b c]
  have e1 : pix (patch hh) ⟨hh.val % 64, Nat.mod_lt _ (by decide)⟩ = hh := Fin.ext (by rw [pix_val, patch_val]; show hh.val / 64 * 64 + hh.val % 64 = hh.val; omega)
  have e2 : pix (patch w) ⟨w.val % 64, Nat.mod_lt _ (by decide)⟩ = w := Fin.ext (by rw [pix_val, patch_val]; show w.val / 64 * 64 + w.val % 64 = w.val; omega)
  have e3 : idx_main_v27 (idx_main_v28 (ix6 b c (patch hh) (⟨hh.val % 64, Nat.mod_lt _ (by decide)⟩ : Fin 64) (patch w) (⟨w.val % 64, Nat.mod_lt _ (by decide)⟩ : Fin 64)))
      = ix4 b c (patch hh) (patch w) := funext fun a => match a with
    | ⟨0, _⟩ => rfl
    | ⟨1, _⟩ => rfl
    | ⟨2, _⟩ => rfl
    | ⟨3, _⟩ => rfl
  rw [e1, e2, e3, gates_eq, pooled_eq]
  rfl

end Cert.ReferenceIdeal.RefValue

end
-- ==== Proof.lean ====
/-
  The certificate's five claims. The three frames: each kernel program's run is its two pipelined regions and the host
  operations between them, none of which writes an argument; the reference is a straight line of host operations.
  The idealization rewrote nothing. The value claim: at the extended reals both programs end with

      result[b, c, h, w] = t[b, c, h, w] · gates[b, c, h / 64, w / 64],   gates = perceptron(patch means of t),

  the kernel program by pooling 64-row bands inside a region, running the perceptron on the host and gating inside a
  second region; the reference by reshaping to patches, a mean over the two in-patch axes, the same perceptron and a
  broadcast product. The two pooling spellings agree on every extended real (a regrouped finite sum; a quotient by
  4096 against a product with 2⁻¹²), and the perceptron is the same operations on both sides, so no precondition is
  used.
-/
import proofs.«151694_j55224689492533_2_alg».proof.Defs
import proofs.«151694_j55224689492533_2_alg».proof.Proof.Gen.Kernel
import proofs.«151694_j55224689492533_2_alg».proof.Proof.Gen.Kernel.Skeleton
import proofs.«151694_j55224689492533_2_alg».proof.Proof.Gen.Kernel.Launch
import proofs.«151694_j55224689492533_2_alg».proof.Proof.Gen.Kernel.Points
import proofs.«151694_j55224689492533_2_alg».proof.Proof.Gen.Kernel.Frame
import proofs.«151694_j55224689492533_2_alg».proof.Proof.Gen.KernelIdeal
import proofs.«151694_j55224689492533_2_alg».proof.Proof.Gen.KernelIdeal.Skeleton
import proofs.«151694_j55224689492533_2_alg».proof.Proof.Gen.KernelIdeal.Launch
import proofs.«151694_j55224689492533_2_alg».proof.Proof.Gen.KernelIdeal.Points
import proofs.«151694_j55224689492533_2_alg».proof.Proof.Gen.KernelIdeal.Frame
import proofs.«151694_j55224689492533_2_alg».proof.Proof.Gen.ReferenceIdeal
import proofs.«151694_j55224689492533_2_alg».proof.Proof.Gen.ReferenceIdeal.Run
import proofs.«151694_j55224689492533_2_alg».proof.Proof.Gen.ReferenceIdeal.Read
import proofs.«151694_j55224689492533_2_alg».proof.Proof.Gen.Pre_finite_inputs
import proofs.«151694_j55224689492533_2_alg».proof.Proof.KernelValue
import proofs.«151694_j55224689492533_2_alg».proof.Proof.RefValue
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end at the one function of the arguments, which agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.RefValue.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
